-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel

variable [Facts]

def fn {F : FTy → Type} [FloatOps F] (main_arg0 : FVec F S8192x8192 .f32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  main_v3
-- ==== Kernel.lean ====
abbrev S8192x8192 : Shape := ⟨2, ![8192, 8192]⟩
abbrev S1x1 : Shape := ⟨2, ![1, 1]⟩
abbrev S512x8192 : Shape := ⟨2, ![512, 8192]⟩
abbrev S512 : Shape := ⟨1, ![512]⟩
abbrev S512x1 : Shape := ⟨2, ![512, 1]⟩
abbrev S1 : Shape := ⟨1, ![1]⟩
abbrev S_ : Shape := ⟨0, ![]⟩
abbrev S256x8192 : Shape := ⟨2, ![256, 8192]⟩

abbrev nBuf : Space → Nat
  | .hbm => 19
  | .vmem => 9
  | .smem => 0
  | _ => 0

abbrev bufTy : (tb : Table) → Fin (tcTables nBuf tb) → BufTy
  | .hbm, ⟨0, _⟩ => ⟨S8192x8192, .f32⟩
  | .hbm, ⟨1, _⟩ => ⟨S1x1, .f32⟩
  | .hbm, ⟨2, _⟩ => ⟨S_, .f32⟩
  | .hbm, ⟨3, _⟩ => ⟨S_, .f32⟩
  | .hbm, ⟨4, _⟩ => ⟨S_, .i1⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .i1⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S1x1, .f32⟩
  | .hbm, ⟨18, _⟩ => ⟨S8192x8192, .f32⟩
  | .local _ .vmem, ⟨0, _⟩ => ⟨S512x8192, .f32⟩
  | .local _ .vmem, ⟨1, _⟩ => ⟨S512x8192, .f32⟩
  | .local _ .vmem, ⟨2, _⟩ => ⟨S1x1, .f32⟩
  | .local _ .vmem, ⟨3, _⟩ => ⟨S1x1, .f32⟩
  | .local _ .vmem, ⟨4, _⟩ => ⟨S256x8192, .f32⟩
  | .local _ .vmem, ⟨5, _⟩ => ⟨S256x8192, .f32⟩
  | .local _ .vmem, ⟨6, _⟩ => ⟨S1x1, .f32⟩
  | .local _ .vmem, ⟨7, _⟩ => ⟨S256x8192, .f32⟩
  | .local _ .vmem, ⟨8, _⟩ => ⟨S256x8192, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_call0_cst : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg2_1 : Ref sig .tc := ⟨.vmem, 8, rfl⟩
abbrev cc0_sem0_0 : DmaSem sig := 0
abbrev cc0_sem0_1 : DmaSem sig := 1
abbrev cc0_sem1_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem2_1 : DmaSem sig := 7

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v13 : BitVec 1 := Scalar.cmpi .eq arg0 c15_i32
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x8192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x8192 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S512x8192_S512x8192_0_0 : ∀ a, (![0, 0] : Fin 2 → Nat) a + S512x8192.size a ≤ S512x8192.size a
  h_S512x8192 : 0 < S512x8192.numel
  reduces_S512x8192_S512 : S512x8192.Reduces [1] S512
  shapeCasts_S512_S512x1 : S512.ShapeCasts S512x1
  reduces_S512x1_S1 : S512x1.Reduces [0] S1
  shapeCasts_S1_S1x1 : S1.ShapeCasts S1x1
  shapeCasts_S1x1_S_ : S1x1.ShapeCasts S_
  shapeCasts_S_S1x1 : S_.ShapeCasts S1x1
  inb_S256x8192_S256x8192_0_0 : ∀ a, (![0, 0] : Fin 2 → Nat) a + S256x8192.size a ≤ S256x8192.size a
  h_S256x8192 : 0 < S256x8192.numel
  inpos_S1x1_p0_0 : ∀ a, (![0, 0] : Fin 2 → Nat) a < S1x1.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x8192.size a ≤ S8192x8192.size a
  hwx0_0 : ∀ i : grid0.Coords, EltTy.bits .f32 = 32 ∨ (Rect.block (s := S8192x8192) S512x8192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1.size a ≤ S1x1.size a
  hwx0_1 : ∀ i : grid0.Coords, EltTy.bits .f32 = 32 ∨ (Rect.block (s := S1x1) S1x1.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x8192.size a ≤ S8192x8192.size a
  hwx1_0 : ∀ i : grid1.Coords, EltTy.bits .f32 = 32 ∨ (Rect.block (s := S8192x8192) S256x8192.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x1.size a ≤ S1x1.size a
  hwx1_1 : ∀ i : grid1.Coords, EltTy.bits .f32 = 32 ∨ (Rect.block (s := S1x1) S1x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x8192.size a ≤ S8192x8192.size a
  hwx1_2 : ∀ i : grid1.Coords, EltTy.bits .f32 = 32 ∨ (Rect.block (s := S8192x8192) S256x8192.size (cc1_transform_2 i) (hinb1_2 i)).WholeWords (EltTy.packing .f32)

variable [Facts₀]

abbrev win0_0 : Pipeline.Window sig grid0 :=
  Pipeline.Window.ofSpec (Memref.whole main_arg0) S512x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

abbrev win1_0 : Pipeline.Window sig grid1 :=
  Pipeline.Window.ofSpec (Memref.whole main_arg0) S256x8192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S1x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v9) S256x8192.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8192x8192 : Shape := ⟨2, ![8192, 8192]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S_, .f32⟩
  | .hbm, ⟨2, _⟩ => ⟨S_, .f32⟩
  | .hbm, ⟨3, _⟩ => ⟨S_, .f32⟩
  | .hbm, ⟨4, _⟩ => ⟨S_, .i1⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .i1⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S8192x8192, .f32⟩
  | .hbm, ⟨18, _⟩ => ⟨S8192x8192, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_cst_2 : Ref sig .tc := ⟨.hbm, 13, rfl⟩
abbrev main_v5 : Ref sig .tc := ⟨.hbm, 14, rfl⟩
abbrev main_cst_3 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩

abbrev nD : Nat := 1
abbrev τ : Topo := Topo.v7x

variable {F : FTy → Type} [FloatOps F]

class Facts₀ : Prop where
  reducesTo_S8192x8192_S_d0_1 : S8192x8192.ReducesTo [0, 1] S_
  h_S_ : 0 < S_.numel
  bcast_S_S8192x8192 : S_.BroadcastsInDim S8192x8192 (![] : Fin 0 → Fin S8192x8192.rank)

variable [Facts₀]

class Facts : Prop extends Facts₀ where

variable [Facts]
-- ==== Proof.BRuns.lean ====
/-
  The first kernel (the running sum) of the program, seen from one grid point: the two branch conditions of its body
  decided over the 16 grid points (the accumulator is reset exactly at point 0, the result is stored exactly at
  point 15), where its result window is idle, the names of the staging and scratch memrefs the body is called
  with, and the region's resting invariant with the scratch accumulator singled out.
-/
import proofs.«144286_j9947144258008_1_alg».proof.Proof.Gen.Kernel.Launch
import proofs.«144286_j9947144258008_1_alg».proof.Proof.Gen.Kernel.Skeleton
import proofs.«144286_j9947144258008_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The first branch of the body (reset the accumulator) is taken: the grid coordinate is 0. -/
abbrev cond0_0 (i : grid0.Coords) : Prop := (Scalar.cmpi .ne (Scalar.extui (Scalar.cmpi .eq (BitVec.ofNat 32 (i 0).val) 0#32)) 0#32) = 1#1
/-- It holds at point 0 only. -/
theorem hcond0_0 : ∀ t : Fin cfg0.N, cond0_0 (grid0.coords t) ↔ t.val % 16 = 0 :=
  (by decide +kernel : ∀ t : Fin grid0.N, cond0_0 (grid0.coords t) ↔ t.val % 16 = 0)

/-- The second branch of the body (store the accumulator as the result) is taken: the grid coordinate is 15. -/
abbrev cond0_1 (i : grid0.Coords) : Prop := k0_cond2 i = 1#1
/-- It holds at point 15 only. -/
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

/-- The input window is never idle. -/
theorem liveAt0_0 : ∀ t : Fin cfg0.N, cfg0.idle 0 (grid0.coords t) = false := by decide +kernel
/-- Where the result is not stored the result window is idle and is not written back. -/
theorem idleAt0_1 : ∀ t : Fin cfg0.N, ¬cond0_1 (grid0.coords t) → cfg0.idle 1 (grid0.coords t) = true := by decide +kernel
theorem noFlush0_1 : ∀ t : Fin cfg0.N, ¬cond0_1 (grid0.coords t) → (cfg0.win 1).flush t = false := by decide +kernel
/-- Where the result is stored the result window is live. -/
theorem liveAt0_1 : ∀ t : Fin cfg0.N, cond0_1 (grid0.coords t) → cfg0.idle 1 (grid0.coords t) = false := by decide +kernel

/-! ## The memrefs the body is called with -/

/-- One staging buffer of the result window, through which its contents are stated. -/
abbrev VO0_1 : View sig .tc .vmem S1x1 .f32 := (Memref.whole cc0_stg1_0 : Memref sig .tc .vmem S1x1 .f32).view
/-- Each window's current staging memref at point `t`, and its wholeness. -/
abbrev ms0_0 (t : Fin cfg0.N) : Memref sig .tc .vmem S512x8192 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1 .f32 := win0_1.stage (cfg0.slots t 1)
abbrev hs0_1 (t : Fin cfg0.N) : (ms0_1 t).IsWhole := hstage0_1 ((cfg0.slots t 1).cast nbuf0_1)
/-- The scratch accumulator: a whole scoped buffer of the kernel's own. -/
abbrev scM0_0 : Memref sig .tc .vmem S1x1 .f32 := Memref.whole cc0_scratch0
/-- The same as a view. -/
abbrev VS0_0 : View sig .tc .vmem S1x1 .f32 := scM0_0.view

/-- The scoped buffers of the core that the first kernel never touches (the second kernel's staging buffers), each at
    some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The region's resting invariant: the scratch accumulator at some contents, the untouched scoped buffers, the
    generator register at some state. -/
theorem PhiA0_eq (c : Dev nD) :
    (Pipeline.ΦA spec0 c : sProp 𝕄)
      = iprop(iprop((∃ d, owns (c : Thread nD τ) scM0_0 fullShare d) ∗ rest0 c) ∗ (∃ r, prngReg c r)) := by
  unfold Pipeline.ΦA rest0; rw [scopedRest0_eq]; simp only [scM0_0, owns_whole]; try rfl

end Cert.Kernel.Fr

end
-- ==== Proof.BRunA.lean ====
/-
  The symbolic run of the running-sum kernel's body in case A of its two branches.
-/
import proofs.«144286_j9947144258008_1_alg».proof.Proof.BRuns

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body of the first kernel at a point of case A, on whole memrefs: the input block at `x0`, the result buffer at contents handed back untouched, the scratch accumulator at anything; it runs to the
    continuation with the input as it was and each buffer it stored into with its stores written, as pieces (last first) that
    the symbolic run finds. -/
noncomputable def kernelRun0_A (c : Dev nD) (i : grid0.Coords) (arg1 : Memref sig .tc .vmem S512x8192 .f32) (harg1 : arg1.IsWhole) (arg2 : Memref sig .tc .vmem S1x1 .f32) (harg2 : arg2.IsWhole) (arg3 : Memref sig .tc .vmem S1x1 .f32) (harg3 : arg3.IsWhole) (hc0 : cond0_0 i) (hc1 : ¬cond0_1 i)
    (x0 : Vec F S512x8192 .f32) :
    Σ' (L1 : List (View.Piece (Elt F) S1x1 .f32)), { LS0 : List (View.Piece (Elt F) S1x1 .f32) //
      ∀ (xi1 : Vec F S1x1 .f32) (E : Set ℕ) (K : PUnit → sProp 𝕄),
        iprop(owns (c : Thread nD τ) arg1 fullShare x0 ∗ owns (c : Thread nD τ) arg2 fullShare xi1 ∗ (∃ d, owns (c : Thread nD τ) arg3 fullShare d)
            ∗ (iprop(owns (c : Thread nD τ) arg1 fullShare x0 ∗ owns (c : Thread nD τ) arg2 fullShare xi1 ∗ (∃ f, arg3.view.loc (c : Thread nD τ) ↦[arg3.view.set]{fullShare} arg3.view.writes (Elt F) f LS0)) -∗ K ⟨⟩))
          ⊢ wp frame (wpE (defs₀ (F := F)) Variants.none c none) E (cc0__sum_kernel i arg1 harg1 arg2 harg2 arg3 harg3) K } := by
  refine ⟨[], ?_, fun xi1 E K => ?run⟩
  case run =>
    simp only [cc0__sum_kernel_eq_skeleton]; unfold cc0__sum_kernel_skel
    unfold owns
    iintro ⟨⟨%f0, %hf0, H0⟩, ⟨%f1, %hf1, H1⟩, ⟨%ds0, %fs0, -, HS0⟩, Hk⟩
    obtain rfl := harg1.eq_unread hf0; obtain rfl := harg2.eq_unread hf1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

end Cert.Kernel.Fr

end
-- ==== Proof.BRunB.lean ====
/-
  The symbolic run of the running-sum kernel's body in case B of its two branches.
-/
import proofs.«144286_j9947144258008_1_alg».proof.Proof.BRuns

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body of the first kernel at a point of case B, on whole memrefs: the input block at `x0`, the result buffer at contents handed back untouched, the scratch accumulator at what the point before left (`xs0`); it runs to the
    continuation with the input as it was and each buffer it stored into with its stores written, as pieces (last first) that
    the symbolic run finds. -/
noncomputable def kernelRun0_B (c : Dev nD) (i : grid0.Coords) (arg1 : Memref sig .tc .vmem S512x8192 .f32) (harg1 : arg1.IsWhole) (arg2 : Memref sig .tc .vmem S1x1 .f32) (harg2 : arg2.IsWhole) (arg3 : Memref sig .tc .vmem S1x1 .f32) (harg3 : arg3.IsWhole) (hc0 : ¬cond0_0 i) (hc1 : ¬cond0_1 i)
    (x0 : Vec F S512x8192 .f32) (xs0 : Vec F S1x1 .f32) :
    Σ' (L1 : List (View.Piece (Elt F) S1x1 .f32)), { LS0 : List (View.Piece (Elt F) S1x1 .f32) //
      ∀ (xi1 : Vec F S1x1 .f32) (E : Set ℕ) (K : PUnit → sProp 𝕄),
        iprop(owns (c : Thread nD τ) arg1 fullShare x0 ∗ owns (c : Thread nD τ) arg2 fullShare xi1 ∗ owns (c : Thread nD τ) arg3 fullShare xs0
            ∗ (iprop(owns (c : Thread nD τ) arg1 fullShare x0 ∗ owns (c : Thread nD τ) arg2 fullShare xi1 ∗ (∃ f, arg3.view.loc (c : Thread nD τ) ↦[arg3.view.set]{fullShare} arg3.view.writes (Elt F) f LS0)) -∗ K ⟨⟩))
          ⊢ wp frame (wpE (defs₀ (F := F)) Variants.none c none) E (cc0__sum_kernel i arg1 harg1 arg2 harg2 arg3 harg3) K } := by
  refine ⟨[], ?_, fun xi1 E K => ?run⟩
  case run =>
    simp only [cc0__sum_kernel_eq_skeleton]; unfold cc0__sum_kernel_skel
    unfold owns
    iintro ⟨⟨%f0, %hf0, H0⟩, ⟨%f1, %hf1, H1⟩, ⟨%fs0, %hfs0, HS0⟩, Hk⟩
    obtain rfl := harg1.eq_unread hf0; obtain rfl := harg2.eq_unread hf1; obtain rfl := harg3.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

end Cert.Kernel.Fr

end
-- ==== Proof.BRunC.lean ====
/-
  The symbolic run of the running-sum kernel's body in case C of its two branches.
-/
import proofs.«144286_j9947144258008_1_alg».proof.Proof.BRuns

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body of the first kernel at a point of case C, on whole memrefs: the input block at `x0`, the result buffer at anything, the scratch accumulator at what the point before left (`xs0`); it runs to the
    continuation with the input as it was and each buffer it stored into with its stores written, as pieces (last first) that
    the symbolic run finds. -/
noncomputable def kernelRun0_C (c : Dev nD) (i : grid0.Coords) (arg1 : Memref sig .tc .vmem S512x8192 .f32) (harg1 : arg1.IsWhole) (arg2 : Memref sig .tc .vmem S1x1 .f32) (harg2 : arg2.IsWhole) (arg3 : Memref sig .tc .vmem S1x1 .f32) (harg3 : arg3.IsWhole) (hc0 : ¬cond0_0 i) (hc1 : cond0_1 i)
    (x0 : Vec F S512x8192 .f32) (xs0 : Vec F S1x1 .f32) :
    Σ' (L1 : List (View.Piece (Elt F) S1x1 .f32)), { LS0 : List (View.Piece (Elt F) S1x1 .f32) //
      ∀ (E : Set ℕ) (K : PUnit → sProp 𝕄),
        iprop(owns (c : Thread nD τ) arg1 fullShare x0 ∗ (∃ d, owns (c : Thread nD τ) arg2 fullShare d) ∗ owns (c : Thread nD τ) arg3 fullShare xs0
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f LS0)) -∗ K ⟨⟩))
          ⊢ wp frame (wpE (defs₀ (F := F)) Variants.none c none) E (cc0__sum_kernel i arg1 harg1 arg2 harg2 arg3 harg3) K } := by
  refine ⟨?_, ?_, fun E K => ?run⟩
  case run =>
    simp only [cc0__sum_kernel_eq_skeleton]; unfold cc0__sum_kernel_skel
    unfold owns
    iintro ⟨⟨%f0, %hf0, H0⟩, ⟨%d1, %f1, -, H1⟩, ⟨%fs0, %hfs0, HS0⟩, Hk⟩
    obtain rfl := harg1.eq_unread hf0; obtain rfl := harg3.eq_unread hfs0
    sl_exec (disch := first | exact hc0 | exact hc1)
    sl_step
    iapply Hk
    isplitl [H0]
    · iexists _; isplitr; · ipureintro; exact harg1.read_unread _
      iexact H0
    isplitl [H1]; · iexists _; iexact H1
    iexists _; iexact HS0

end Cert.Kernel.Fr

end
-- ==== Proof.BFrame0.lean ====
/-
  The first kernel (the running sum) as one region of the program, at the buffer contents `V` the region is entered
  with. After point `n` the 1x1 scratch accumulator holds what the body's stores leave there: at point 0 the
  block's sum added to the zero just stored, at a later point the block's sum added to what the point before left.
  The result window is stored at point 15 only (the accumulator's value) and is idle, and not written back,
  elsewhere. The region's invariant carries the accumulator's contents from point to point.
-/
import proofs.«144286_j9947144258008_1_alg».proof.Proof.BRunA
import proofs.«144286_j9947144258008_1_alg».proof.Proof.BRunB
import proofs.«144286_j9947144258008_1_alg».proof.Proof.BRunC

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves in the scratch accumulator and in the result buffer -/

theorem scover0_A (c : Dev nD) (i : grid0.Coords) (arg1 : Memref sig .tc .vmem S512x8192 .f32) (harg1 : arg1.IsWhole) (arg2 : Memref sig .tc .vmem S1x1 .f32) (harg2 : arg2.IsWhole) (arg3 : Memref sig .tc .vmem S1x1 .f32) (harg3 : arg3.IsWhole) (hc0 : cond0_0 i) (hc1 : ¬cond0_1 i)
    (x0 : Vec F S512x8192 .f32) (y : S1x1.Idx) :
    ∃ pc ∈ (kernelRun0_A c i arg1 harg1 arg2 harg2 arg3 harg3 hc0 hc1 x0).2.1, y ∈ pc.1.set :=
  View.cover_of_tiledL (kernelRun0_A c i arg1 harg1 arg2 harg2 arg3 harg3 hc0 hc1 x0).2.1 S1x1.size (by sl_kernel_rfl) y

/-- What a point of case A leaves in the scratch accumulator. -/
def sout0_A (c : Dev nD) (i : grid0.Coords) (arg1 : Memref sig .tc .vmem S512x8192 .f32) (harg1 : arg1.IsWhole) (arg2 : Memref sig .tc .vmem S1x1 .f32) (harg2 : arg2.IsWhole) (arg3 : Memref sig .tc .vmem S1x1 .f32) (harg3 : arg3.IsWhole) (hc0 : cond0_0 i) (hc1 : ¬cond0_1 i)
    (x0 : Vec F S512x8192 .f32) : Vec F S1x1 .f32 :=
  VS0_0.read (Elt F) (VS0_0.writes (Elt F) VS0_0.junk (kernelRun0_A c i arg1 harg1 arg2 harg2 arg3 harg3 hc0 hc1 x0).2.1)

theorem scover0_B (c : Dev nD) (i : grid0.Coords) (arg1 : Memref sig .tc .vmem S512x8192 .f32) (harg1 : arg1.IsWhole) (arg2 : Memref sig .tc .vmem S1x1 .f32) (harg2 : arg2.IsWhole) (arg3 : Memref sig .tc .vmem S1x1 .f32) (harg3 : arg3.IsWhole) (hc0 : ¬cond0_0 i) (hc1 : ¬cond0_1 i)
    (x0 : Vec F S512x8192 .f32) (xs0 : Vec F S1x1 .f32) (y : S1x1.Idx) :
    ∃ pc ∈ (kernelRun0_B c i arg1 harg1 arg2 harg2 arg3 harg3 hc0 hc1 x0 xs0).2.1, y ∈ pc.1.set :=
  View.cover_of_tiledL (kernelRun0_B c i arg1 harg1 arg2 harg2 arg3 harg3 hc0 hc1 x0 xs0).2.1 S1x1.size (by sl_kernel_rfl) y

/-- What a point of case B leaves in the scratch accumulator. -/
def sout0_B (c : Dev nD) (i : grid0.Coords) (arg1 : Memref sig .tc .vmem S512x8192 .f32) (harg1 : arg1.IsWhole) (arg2 : Memref sig .tc .vmem S1x1 .f32) (harg2 : arg2.IsWhole) (arg3 : Memref sig .tc .vmem S1x1 .f32) (harg3 : arg3.IsWhole) (hc0 : ¬cond0_0 i) (hc1 : ¬cond0_1 i)
    (x0 : Vec F S512x8192 .f32) (xs0 : Vec F S1x1 .f32) : Vec F S1x1 .f32 :=
  VS0_0.read (Elt F) (VS0_0.writes (Elt F) VS0_0.junk (kernelRun0_B c i arg1 harg1 arg2 harg2 arg3 harg3 hc0 hc1 x0 xs0).2.1)

theorem scover0_C (c : Dev nD) (i : grid0.Coords) (arg1 : Memref sig .tc .vmem S512x8192 .f32) (harg1 : arg1.IsWhole) (arg2 : Memref sig .tc .vmem S1x1 .f32) (harg2 : arg2.IsWhole) (arg3 : Memref sig .tc .vmem S1x1 .f32) (harg3 : arg3.IsWhole) (hc0 : ¬cond0_0 i) (hc1 : cond0_1 i)
    (x0 : Vec F S512x8192 .f32) (xs0 : Vec F S1x1 .f32) (y : S1x1.Idx) :
    ∃ pc ∈ (kernelRun0_C c i arg1 harg1 arg2 harg2 arg3 harg3 hc0 hc1 x0 xs0).2.1, y ∈ pc.1.set :=
  View.cover_of_tiledL (kernelRun0_C c i arg1 harg1 arg2 harg2 arg3 harg3 hc0 hc1 x0 xs0).2.1 S1x1.size (by sl_kernel_rfl) y

/-- What a point of case C leaves in the scratch accumulator. -/
def sout0_C (c : Dev nD) (i : grid0.Coords) (arg1 : Memref sig .tc .vmem S512x8192 .f32) (harg1 : arg1.IsWhole) (arg2 : Memref sig .tc .vmem S1x1 .f32) (harg2 : arg2.IsWhole) (arg3 : Memref sig .tc .vmem S1x1 .f32) (harg3 : arg3.IsWhole) (hc0 : ¬cond0_0 i) (hc1 : cond0_1 i)
    (x0 : Vec F S512x8192 .f32) (xs0 : Vec F S1x1 .f32) : Vec F S1x1 .f32 :=
  VS0_0.read (Elt F) (VS0_0.writes (Elt F) VS0_0.junk (kernelRun0_C c i arg1 harg1 arg2 harg2 arg3 harg3 hc0 hc1 x0 xs0).2.1)

theorem cover0_C_1 (c : Dev nD) (i : grid0.Coords) (arg1 : Memref sig .tc .vmem S512x8192 .f32) (harg1 : arg1.IsWhole) (arg2 : Memref sig .tc .vmem S1x1 .f32) (harg2 : arg2.IsWhole) (arg3 : Memref sig .tc .vmem S1x1 .f32) (harg3 : arg3.IsWhole) (hc0 : ¬cond0_0 i) (hc1 : cond0_1 i)
    (x0 : Vec F S512x8192 .f32) (xs0 : Vec F S1x1 .f32) (y : S1x1.Idx) :
    ∃ pc ∈ (kernelRun0_C c i arg1 harg1 arg2 harg2 arg3 harg3 hc0 hc1 x0 xs0).1, y ∈ pc.1.set :=
  View.cover_of_tiledL (kernelRun0_C c i arg1 harg1 arg2 harg2 arg3 harg3 hc0 hc1 x0 xs0).1 S1x1.size (by sl_kernel_rfl) y

/-- What a point of case C leaves in the result window's staging buffer. -/
def out0_C_1 (c : Dev nD) (i : grid0.Coords) (arg1 : Memref sig .tc .vmem S512x8192 .f32) (harg1 : arg1.IsWhole) (arg2 : Memref sig .tc .vmem S1x1 .f32) (harg2 : arg2.IsWhole) (arg3 : Memref sig .tc .vmem S1x1 .f32) (harg3 : arg3.IsWhole) (hc0 : ¬cond0_0 i) (hc1 : cond0_1 i)
    (x0 : Vec F S512x8192 .f32) (xs0 : Vec F S1x1 .f32) : Vec F S1x1 .f32 :=
  VO0_1.read (Elt F) (VO0_1.writes (Elt F) VO0_1.junk (kernelRun0_C c i arg1 harg1 arg2 harg2 arg3 harg3 hc0 hc1 x0 xs0).1)

/-! ## What the result buffer and the accumulator hold after each point -/

theorem N0 : cfg0.N = 16 := N_0

/-- After the body at position `n`: the result window's staging buffer (named only where it is stored, at point 15;
    elsewhere a value nothing consults) and the scratch accumulator, by recursion on the point. -/
def outsAt0 (c : Dev nD) : (n : ℕ) → n < cfg0.N → Vec F S1x1 .f32 × Vec F S1x1 .f32
  | 0, hn => (sout0_A c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩), sout0_A c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩))
  | n + 1, hn =>
    if h1 : (n + 1) % 16 = 15 then
      (out0_C_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => (fun h => by (try dsimp only at h); have hN : n + 1 < 16 := lt_of_lt_of_eq hn N0; omega) ((hcond0_0 ⟨n + 1, hn⟩).mp h)) ((hcond0_1 ⟨n + 1, hn⟩).mpr h1) (iblk0 V c 0 ⟨n + 1, hn⟩) (outsAt0 c n (Nat.lt_of_succ_lt hn)).2, sout0_C c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => (fun h => by (try dsimp only at h); have hN : n + 1 < 16 := lt_of_lt_of_eq hn N0; omega) ((hcond0_0 ⟨n + 1, hn⟩).mp h)) ((hcond0_1 ⟨n + 1, hn⟩).mpr h1) (iblk0 V c 0 ⟨n + 1, hn⟩) (outsAt0 c n (Nat.lt_of_succ_lt hn)).2)
    else
      (sout0_B c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => (fun h => by (try dsimp only at h); have hN : n + 1 < 16 := lt_of_lt_of_eq hn N0; omega) ((hcond0_0 ⟨n + 1, hn⟩).mp h)) (fun h => h1 ((hcond0_1 ⟨n + 1, hn⟩).mp h)) (iblk0 V c 0 ⟨n + 1, hn⟩) (outsAt0 c n (Nat.lt_of_succ_lt hn)).2, sout0_B c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => (fun h => by (try dsimp only at h); have hN : n + 1 < 16 := lt_of_lt_of_eq hn N0; omega) ((hcond0_0 ⟨n + 1, hn⟩).mp h)) (fun h => h1 ((hcond0_1 ⟨n + 1, hn⟩).mp h)) (iblk0 V c 0 ⟨n + 1, hn⟩) (outsAt0 c n (Nat.lt_of_succ_lt hn)).2)

/-- `outsAt0` at point 0. -/
theorem outsAt0_A (c : Dev nD) (t : Fin cfg0.N) (h0 : t.val % 16 = 0) (h1 : ¬t.val % 16 = 15) :
    outsAt0 V c t.val t.isLt = (sout0_A c (grid0.coords t) (ms0_0 t) (hs0_0 t) (ms0_1 t) (hs0_1 t) scM0_0 (Memref.isWhole_whole _) ((hcond0_0 t).mpr h0) (fun h => h1 ((hcond0_1 t).mp h)) (iblk0 V c 0 t), sout0_A c (grid0.coords t) (ms0_0 t) (hs0_0 t) (ms0_1 t) (hs0_1 t) scM0_0 (Memref.isWhole_whole _) ((hcond0_0 t).mpr h0) (fun h => h1 ((hcond0_1 t).mp h)) (iblk0 V c 0 t)) := by
  obtain ⟨n, hn⟩ := t
  cases n with
  | zero => exact rfl
  | succ n => exact (by exfalso; (try dsimp only at h0); have hN : n + 1 < 16 := lt_of_lt_of_eq hn N0; omega)

/-- `outsAt0` at a point that neither resets nor stores the result: over what the point before left. -/
theorem outsAt0_B (c : Dev nD) (t : Fin cfg0.N) (h0 : ¬t.val % 16 = 0) (h1 : ¬t.val % 16 = 15) :
    outsAt0 V c t.val t.isLt = (sout0_B c (grid0.coords t) (ms0_0 t) (hs0_0 t) (ms0_1 t) (hs0_1 t) scM0_0 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2, sout0_B c (grid0.coords t) (ms0_0 t) (hs0_0 t) (ms0_1 t) (hs0_1 t) scM0_0 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h1).trans rfl

/-- `outsAt0` at point 15: over what the point before left. -/
theorem outsAt0_C (c : Dev nD) (t : Fin cfg0.N) (h0 : ¬t.val % 16 = 0) (h1 : t.val % 16 = 15) :
    outsAt0 V c t.val t.isLt = (out0_C_1 c (grid0.coords t) (ms0_0 t) (hs0_0 t) (ms0_1 t) (hs0_1 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2, sout0_C c (grid0.coords t) (ms0_0 t) (hs0_0 t) (ms0_1 t) (hs0_1 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_pos h1).trans rfl

/-- The region's invariant before position `n`: before the first point the resting one (the accumulator at anything);
    afterwards the accumulator at what the point before left in it, the untouched scoped buffers, the generator
    register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ rest0 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2) ∗ rest0 c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2) ∗ rest0 c) ∗ (∃ r, prngReg c r)) := by
  cases n with
  | zero => exact absurd rfl hz
  | succ n => rfl

/-! ## The region's proof data -/

/-- The proof data of the first kernel's pipeline on core `c`: the arrays as the region finds them; after the body at point
    `t` the input's buffer at its block and the result's at `outsAt0`; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
/-- The body at any point: the input's memref holds its block; the closed forms say which case the point is in; the
    invariant hands the body the accumulator at what the point before left (at anything at the first point) and takes it
    back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS V c (t.val + 1) t.isLt from rfl, PhiS_succ]
  have hN : t.val < 16 := lt_of_lt_of_eq t.isLt N0
  rw [show (dat0 V c).leavesExact 0 t = owns (c : Thread nD τ) (ms0_0 t) fullShare ((dat0 V c).after 0 t) from by
    unfold Dat.leavesExact; rw [liveAt0_0 t], after0_0]
  by_cases h0 : t.val % 16 = 0
  · have h1 : ¬t.val % 16 = 15 := by omega
    have hz : t.val = 0 := by omega
    rw [Dat.leavesExact_idle (dat0 V c) 1 t (idleAt0_1 t (fun h => h1 ((hcond0_1 t).mp h))) (noFlush0_1 t (fun h => h1 ((hcond0_1 t).mp h)))]
    rw [outsAt0_A V c t h0 h1]
    unfold sout0_A; (try dsimp only)
    rw [PhiS_castSucc V c t, PhiS_zero V c _ _ hz, PhiA0_eq]
    iintro ⟨⟨⟨HS0, Hr⟩, Hg⟩, Ho, ⟨%d0, H0⟩, ⟨%d1, H1⟩⟩
    iapply ((kernelRun0_A c (grid0.coords t) _ _ _ _ _ _ ((hcond0_0 t).mpr h0) (fun h => h1 ((hcond0_1 t).mp h)) (iblk0 V c 0 t)).2.2 _ Set.univ _)
    isplitl [H0]; · iexact H0
    isplitl [H1]; · iexact H1
    isplitl [HS0]; · iexact HS0
    iintro ⟨H0, H1, ⟨%es0, HS0⟩⟩
    isplitl [HS0 Hr Hg]
    · isplitl [HS0 Hr]
      · isplitl [HS0]
        · unfold owns; iexists _; isplitr
          swap; · iexact HS0
          ipureintro; exact View.read_writes_of_cover _ _ _ _ _ (scover0_A c _ _ _ _ _ _ _ _ _ _)
        iexact Hr
      iexact Hg
    isplitl [Ho]; · iexact Ho
    isplitl [H0]; · iexact H0
    iexists _; iexact H1
  · have hz : t.val ≠ 0 := by omega
    by_cases h1 : t.val % 16 = 15
    · rw [show (dat0 V c).leavesExact 1 t = owns (c : Thread nD τ) (ms0_1 t) fullShare ((dat0 V c).after 1 t) from by
        unfold Dat.leavesExact; rw [liveAt0_1 t ((hcond0_1 t).mpr h1)], after0_1]
      rw [outsAt0_C V c t h0 h1]
      unfold out0_C_1 sout0_C; (try dsimp only)
      rw [PhiS_castSucc V c t, PhiS_pos V c _ _ hz]
      iintro ⟨⟨⟨HS0, Hr⟩, Hg⟩, Ho, ⟨%d0, H0⟩, ⟨%d1, H1⟩⟩
      iapply ((kernelRun0_C c (grid0.coords t) _ _ _ _ _ _ (fun h => h0 ((hcond0_0 t).mp h)) ((hcond0_1 t).mpr h1) (iblk0 V c 0 t) _).2.2 Set.univ _)
      isplitl [H0]; · iexact H0
      isplitl [H1]; · iexists _; iexact H1
      isplitl [HS0]; · iexact HS0
      iintro ⟨H0, ⟨%e1, H1⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_C c _ _ _ _ _ _ _ _ _ _ _)
          iexact Hr
        iexact Hg
      isplitl [Ho]; · iexact Ho
      isplitl [H0]; · iexact H0
      unfold owns; iexists _; isplitr
      swap; · iexact H1
      ipureintro; exact View.read_writes_of_cover _ _ _ _ _ (cover0_C_1 c _ _ _ _ _ _ _ _ _ _ _)
    · rw [Dat.leavesExact_idle (dat0 V c) 1 t (idleAt0_1 t (fun h => h1 ((hcond0_1 t).mp h))) (noFlush0_1 t (fun h => h1 ((hcond0_1 t).mp h)))]
      rw [outsAt0_B V c t h0 h1]
      unfold sout0_B; (try dsimp only)
      rw [PhiS_castSucc V c t, PhiS_pos V c _ _ hz]
      iintro ⟨⟨⟨HS0, Hr⟩, Hg⟩, Ho, ⟨%d0, H0⟩, ⟨%d1, H1⟩⟩
      iapply ((kernelRun0_B c (grid0.coords t) _ _ _ _ _ _ (fun h => h0 ((hcond0_0 t).mp h)) (fun h => h1 ((hcond0_1 t).mp h)) (iblk0 V c 0 t) _).2.2 _ Set.univ _)
      isplitl [H0]; · iexact H0
      isplitl [H1]; · iexact H1
      isplitl [HS0]; · iexact HS0
      iintro ⟨H0, H1, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_B c _ _ _ _ _ _ _ _ _ _ _)
          iexact Hr
        iexact Hg
      isplitl [Ho]; · iexact Ho
      isplitl [H0]; · iexact H0
      iexists _; iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the resting one back: the accumulator's named contents are forgotten. -/
theorem hout0 (c : Dev nD) : (dat0 V c).Φ (Fin.last cfg0.N) ⊢ Pipeline.ΦA spec0 c := by
  have ht : (Fin.last cfg0.N).val ≠ 0 := by rw [Fin.val_last]; have := N0; omega
  rw [show (dat0 V c).Φ (Fin.last cfg0.N) = PhiS V c (Fin.last cfg0.N).val (Nat.le_of_lt_succ (Fin.last cfg0.N).isLt) from rfl, PhiS_pos V c _ _ ht, PhiA0_eq]
  iintro ⟨⟨HS0, Hr⟩, Hg⟩
  isplitl [HS0 Hr]
  · isplitl [HS0]
    · iexists _; iexact HS0
    iexact Hr
  iexact Hg

end Cert.Kernel.Fr

end
-- ==== Proof.BFrame1.lean ====
/-
  The second kernel (add the scalar to every entry) as one region of the program, at the buffer contents `V` the region
  is entered with: at each of its 32 grid points the body loads a 256x8192 block of the array and the 1x1 scalar, and
  stores their sum (the scalar splat over the block) into the result's block.
-/
import proofs.«144286_j9947144258008_1_alg».proof.Proof.Gen.Kernel.Launch
import proofs.«144286_j9947144258008_1_alg».proof.Proof.Gen.Kernel.Skeleton
import proofs.«144286_j9947144258008_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S256x8192 := Rect.unit (s := S256x8192) ![0, 0] S256x8192.size inb_S256x8192_S256x8192_0_0
abbrev r1_1 : Rect S1x1 := Rect.unit (s := S1x1) ![0, 0] S1x1.size inb_S1x1_S1x1_0_0

/-- The result window's staging buffer after the body, from the input windows' blocks: its one store. -/
def out1_2 (x0 : Vec F S256x8192 .f32) (x1 : Vec F S1x1 .f32) : Vec F S256x8192 .f32 :=
  View.canon [⟨r1_0, k1_pay1 (View.ld x0 r1_0) (View.ld x1 r1_1)⟩]

/-- The store covers the buffer. -/
theorem cover1_2 (p0 : Vec F S256x8192 .f32) (y : S256x8192.Idx) :
    ∃ pc ∈ ([⟨r1_0, p0⟩] : List (View.Piece (Elt F) S256x8192 .f32)), y ∈ pc.1.set :=
  View.cover_of_tiled [⟨r1_0, p0⟩] S256x8192.size (by rfl) y

/-! ## The body's triple -/

set_option maxHeartbeats 1000000 in
/-- The kernel body on whole staging memrefs, the inputs' at read contents and the result's at anything, runs to the
    continuation holding the inputs' as they were and the result's at `out1_2` of the inputs'. -/
theorem sound_kernel1 (c : Dev nD) (E : Set ℕ) (i : grid1.Coords) (arg1 : Memref sig .tc .vmem S256x8192 .f32) (harg1 : arg1.IsWhole) (arg2 : Memref sig .tc .vmem S1x1 .f32) (harg2 : arg2.IsWhole) (arg3 : Memref sig .tc .vmem S256x8192 .f32) (harg3 : arg3.IsWhole)
    (x0 : Vec F S256x8192 .f32) (x1 : Vec F S1x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__add_kernel i arg1 harg1 arg2 harg2 arg3 harg3) K := by
  simp only [cc1__add_kernel_eq_skeleton]; unfold cc1__add_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The region's proof data -/

/-- The proof data of the second kernel's pipeline on core `c`: the arrays as the region finds them; after the body at point
    `t` each input's buffer at its block and the result's at `out1_2` of the input blocks; the resting invariant;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so `sound_kernel1` applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.BRun.lean ====
/-
  The whole program as a run: the buffer contents at every boundary between its seven items (the running-sum region,
  five stretches of host operations, the add region) as a fold from the launch memory, each region's proof data at its
  entry contents, and the launch: every weakly fair execution terminates, nothing faults, and at the end every unscoped
  buffer holds the last boundary's contents.
-/
import proofs.«144286_j9947144258008_1_alg».proof.Proof.BFrame0
import proofs.«144286_j9947144258008_1_alg».proof.Proof.BFrame1

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary: a fold through the program -/

/-- Core `c`'s buffers at launch (the first region's entry). -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- At the first region's exit: its arrays at what the pipeline leaves, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After each stretch of host operations. -/
abbrev W2 : Dev nD → Valuation τ sig (Elt F) := fun c => StableHlo.after hostOps1 (W1 m ρ c)
abbrev W3 : Dev nD → Valuation τ sig (Elt F) := fun c => StableHlo.after hostOps1_1 (W2 m ρ c)
abbrev W4 : Dev nD → Valuation τ sig (Elt F) := fun c => StableHlo.after hostOps1_2 (W3 m ρ c)
abbrev W5 : Dev nD → Valuation τ sig (Elt F) := fun c => StableHlo.after hostOps1_3 (W4 m ρ c)
/-- The second region's entry. -/
abbrev W6 : Dev nD → Valuation τ sig (Elt F) := fun c => StableHlo.after hostOps1_4 (W5 m ρ c)
abbrev V6 : (c : Dev nD) → (b : Ref sig .tc) → Buf (Elt F) ((c : Thread nD τ).loc b) := fun c b => W6 m ρ c b
/-- At the second region's exit. -/
def W7 (c : Dev nD) : Valuation τ sig (Elt F) :=
  Pipeline.withArrays spec1 c (W6 m ρ c) fun w => (dat1 (V6 m ρ) c).arrAt w cfg1.N
theorem W7_arr (c : Dev nD) (w : Fin cfg1.W) :
    W7 m ρ c (Proc.devRef .tc (Pipeline.arrRef spec1 w)) = (dat1 (V6 m ρ) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m ρ c (Proc.devRef .tc b) = W6 m ρ c (Proc.devRef .tc b) := by
  unfold W7; exact Pipeline.withArrays_of_ne spec1 c _ _ b hb
abbrev V7 : (c : Dev nD) → (b : Ref sig .tc) → Buf (Elt F) ((c : Thread nD τ).loc b) := fun c b => W7 m ρ c b
theorem hF1 (c : Dev nD) (w : Fin cfg1.W) : (dat1 (V6 m ρ) c).arrAt w cfg1.N = V7 m ρ c (Pipeline.arrRef spec1 w) :=
  (W7_arr m ρ c w).symm
theorem hrest1 (c : Dev nD) : ∀ b, b ∉ Finset.univ.image (Pipeline.arrRef spec1) → V7 m ρ c b = V6 m ρ c b :=
  fun b hb => W7_of_ne m ρ c b fun w e => hb (Finset.mem_image.mpr ⟨w, Finset.mem_univ _, e⟩)

/-! ## The proof data family and the thread state -/

/-- No pipeline has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V6 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state and the core's dues, none. -/
abbrev R (c : Dev nD) : sProp 𝕄 := iprop((∃ r, prngReg c r) ∗ ∃ W, owes (c : Thread nD τ) (0 : CellTallies nD τ sig Unit) W)
/-- A stretch of host operations as an item: over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register
    at some state. -/
abbrev Tₙ (c : Dev nD) : sProp 𝕄 := iprop(StableHlo.held (c : Thread nD τ) (Pipeline.ucRefs τ sig) (W7 m ρ c) ∗ ∃ r, prngReg c r)

/-! ## The regions as items -/

-- `iapply` of a library lemma stated over the pinned configuration unifies only when unification may unfold plain
-- definitions in a metavariable's type
set_option backward.isDefEq.respectTransparency.types false in
/-- Region 0 over the thread state: entered from every unscoped buffer at the contents before it, left at the contents
    after it. Its arrays are split out of the unscoped buffers and put back at the exit contents; the generator register
    goes into the region's invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show iprop(iprop(∃ r, prngReg c r) ∗ Pipeline.prefHeld (pcfgs (F := F) 0).pre c (fun _ => fullShare) (adm (F := F) 0).1 ∗ Pipeline.scopedRest spec0 c) ⊢ (Pipeline.ΦA spec0 c : sProp 𝕄) from ?_).trans (hin0 (V0 m ρ) c)
    unfold Pipeline.ΦA
    iintro ⟨Hp, -, Hr⟩
    isplitl [Hr]; · iexact Hr
    iexact Hp
  hout c := by
    rw [Pipeline.ownSems0_none]
    refine (hout0 (V0 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over the pinned configuration unifies only when unification may unfold plain
-- definitions in a metavariable's type
set_option backward.isDefEq.respectTransparency.types false in
/-- Region 1 over the thread state: entered from every unscoped buffer at the contents before it, left at the contents
    after it. Its arrays are split out of the unscoped buffers and put back at the exit contents; the generator register
    goes into the region's invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V6 m ρ) c).loose
  hwaits := Pipeline.hwaits_of_owed_zero _ _ _ _ L lv 1 fun _ _ => rfl
  pre c := iprop(StableHlo.held (c : Thread nD τ) (Pipeline.ucRefs τ sig) (W6 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V6 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V6 m ρ c) (V7 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as items, and the launch -/

/-- The program's seven items in order. -/
abbrev segs : List (Pipeline.Seg (pcfgs (F := F)) adm (pdats m ρ) () defs₀ 𝒱₀ L lv) :=
  [ .region (reg0 m ρ),
    .host (hseg hostOps1 hostOps1_sub hostOps1_fresh (W1 m ρ)),
    .host (hseg hostOps1_1 hostOps1_1_sub hostOps1_1_fresh (W2 m ρ)),
    .host (hseg hostOps1_2 hostOps1_2_sub hostOps1_2_fresh (W3 m ρ)),
    .host (hseg hostOps1_3 hostOps1_3_sub hostOps1_3_fresh (W4 m ρ)),
    .host (hseg hostOps1_4 hostOps1_4_sub hostOps1_4_fresh (W5 m ρ)),
    .region (reg1 m ρ) ]

set_option backward.isDefEq.respectTransparency.types false in
/-- At the compiled mesh, from any memory with zero counters, every weakly fair execution of the program on the
    TensorCores terminates, nothing faulting, and every final state has every unscoped buffer at the last boundary's
    contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by
      rewrite [main_chain c, Pipeline.Seg.run_eq_chain,
        show (segs m ρ).map Pipeline.Seg.prog = [
          Prog.lift (.customCall (Pipeline.entry 0) ()),
          StableHlo.seq hostOps1,
          StableHlo.seq hostOps1_1,
          StableHlo.seq hostOps1_2,
          StableHlo.seq hostOps1_3,
          StableHlo.seq hostOps1_4,
          Prog.lift (.customCall (Pipeline.entry 1) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

end Cert.Kernel.Fr

end
-- ==== Proof.RefRun.lean ====
import proofs.«144286_j9947144258008_1_alg».proof.Defs
import proofs.«144286_j9947144258008_1_alg».proof.Proof.Gen.ReferenceIdeal
import Idealize.ShloMosaic.Lib.StableHlo.Run

/-!
The reference's run, read back.

The reference computes, from the argument array `x`: the sum `s` of all its entries (a reduction over both
axes from the initial value 0), the truncation `n` of `s` toward zero (the ceiling where `s < 0`, the floor
elsewhere), the scalar `total = n · (n − 1) · ½` where `n > 1` and `0` elsewhere, and the result
`x + total`, the scalar broadcast over the array. Its two outlined functions are straight lines of host
operations, so the whole program is one straight line of eighteen operations; its run ends with the result
buffer at the composed pure term of the argument array, and the argument unchanged.
-/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The scalar chain after the sum: `n` is `s` truncated toward zero (the ceiling of a negative `s`, the floor
    of any other), and the value is `n · (n − 1) · ½` where `n > 1`, zero elsewhere. -/
def total (s : (⟨S_, .f32⟩ : BufTy).Contents (Elt F)) : (⟨S_, .f32⟩ : BufTy).Contents (Elt F) :=
  select
    (cmpf .ogt (select (cmpf .olt s (constant S_ .f32 0x00000000#32)) (Host.ceil s) (Host.floor s)) (constant S_ .f32 0x3F800000#32))
    (mulf
      (mulf (select (cmpf .olt s (constant S_ .f32 0x00000000#32)) (Host.ceil s) (Host.floor s))
        (subf (select (cmpf .olt s (constant S_ .f32 0x00000000#32)) (Host.ceil s) (Host.floor s)) (constant S_ .f32 0x3F800000#32)))
      (constant S_ .f32 0x3F000000#32))
    (constant S_ .f32 0x00000000#32)

/-- The result array as one function of the argument array: `x` plus the broadcast of `total` of the sum of
    all entries of `x`. -/
def refOut (x : (⟨S8192x8192, .f32⟩ : BufTy).Contents (Elt F)) : (⟨S8192x8192, .f32⟩ : BufTy).Contents (Elt F) :=
  addf x (broadcastInDim S8192x8192 ![] bcast_S_S8192x8192
    (total (Host.reduceAdd x (constant S_ .f32 0x00000000#32) reducesTo_S8192x8192_S_d0_1 h_S_)))

/-- @main's eighteen operations in order, the two calls unfolded: the truncation is five (the zero, the
    comparison with it, the ceiling, the floor, the selection), the final selection one. -/
abbrev ops : List (HloOp τ sig (Elt F)) :=
  [ nullary main_cst (constant S_ .f32 0x00000000#32),
    binary main_arg0 main_cst main_v0 ((fun x v => Host.reduceAdd x v reducesTo_S8192x8192_S_d0_1 h_S_) : (⟨S8192x8192, .f32⟩ : BufTy).Contents (Elt F) → (⟨S_, .f32⟩ : BufTy).Contents (Elt F) → (⟨S_, .f32⟩ : BufTy).Contents (Elt F)),
    TRef.nullary main_call0.cst (constant S_ .f32 0x00000000#32),
    TRef.binary (.of main_v0) main_call0.cst main_call0.v0 (cmpf .olt),
    TRef.unary (.of main_v0) main_call0.v1 Host.ceil,
    TRef.unary (.of main_v0) main_call0.v2 Host.floor,
    TRef.ternary main_call0.v0 main_call0.v1 main_call0.v2 main_call0.call0.v0 select,
    nullary main_cst_0 (constant S_ .f32 0x3F800000#32),
    binary main_v1 main_cst_0 main_v2 (cmpf .ogt : (⟨S_, .f32⟩ : BufTy).Contents (Elt F) → (⟨S_, .f32⟩ : BufTy).Contents (Elt F) → (⟨S_, .i1⟩ : BufTy).Contents (Elt F)),
    nullary main_cst_1 (constant S_ .f32 0x3F800000#32),
    binary main_v1 main_cst_1 main_v3 (subf : (⟨S_, .f32⟩ : BufTy).Contents (Elt F) → (⟨S_, .f32⟩ : BufTy).Contents (Elt F) → (⟨S_, .f32⟩ : BufTy).Contents (Elt F)),
    binary main_v1 main_v3 main_v4 (mulf : (⟨S_, .f32⟩ : BufTy).Contents (Elt F) → (⟨S_, .f32⟩ : BufTy).Contents (Elt F) → (⟨S_, .f32⟩ : BufTy).Contents (Elt F)),
    nullary main_cst_2 (constant S_ .f32 0x3F000000#32),
    binary main_v4 main_cst_2 main_v5 (mulf : (⟨S_, .f32⟩ : BufTy).Contents (Elt F) → (⟨S_, .f32⟩ : BufTy).Contents (Elt F) → (⟨S_, .f32⟩ : BufTy).Contents (Elt F)),
    nullary main_cst_3 (constant S_ .f32 0x00000000#32),
    TRef.ternary (.of main_v2) (.of main_v5) (.of main_cst_3) main_call1.v0 select,
    unary main_v6 main_v7 (broadcastInDim S8192x8192 ![] bcast_S_S8192x8192 : (⟨S_, .f32⟩ : BufTy).Contents (Elt F) → (⟨S8192x8192, .f32⟩ : BufTy).Contents (Elt F)),
    binary main_arg0 main_v7 main_v8 (addf : (⟨S8192x8192, .f32⟩ : BufTy).Contents (Elt F) → (⟨S8192x8192, .f32⟩ : BufTy).Contents (Elt F) → (⟨S8192x8192, .f32⟩ : BufTy).Contents (Elt F)) ]

set_option maxRecDepth 1024 in
/-- @main is that straight line: the two functions' definitions unfolded at their calls, both sides are one
    chain of operation steps once sequencing is reassociated. -/
theorem main_eq (c : Dev nD) : main (F := F) c = seq ops := by
  simp only [main, fn_trunc.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., binary_bufs_sub .., nullary_bufs_sub .., binary_bufs_sub .., unary_bufs_sub .., unary_bufs_sub ..,
    ternary_bufs_sub .., nullary_bufs_sub .., binary_bufs_sub .., nullary_bufs_sub .., binary_bufs_sub .., binary_bufs_sub ..,
    nullary_bufs_sub .., binary_bufs_sub .., nullary_bufs_sub .., ternary_bufs_sub .., unary_bufs_sub .., binary_bufs_sub ..⟩

/-- The fold at the result buffer is `refOut` of the argument's contents. -/
theorem out_eq (V : Valuation τ sig (Elt F)) :
    after ops V (main_v8 : DevRef τ sig) = refOut (V (main_arg0 : DevRef τ sig)) := by
  after_results
  rfl

/-- No operation writes the argument's buffer. -/
theorem arg0_eq (V : Valuation τ sig (Elt F)) :
    after ops V (main_arg0 : DevRef τ sig) = V (main_arg0 : DevRef τ sig) := by
  after_results

/-- On every device, for any float values, from any memory with zero counters: every weakly fair execution of
    @main terminates with the result at `refOut` of the argument and the argument unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v8) = refOut (m ((c.tc : Thread nD τ).loc main_arg0))
      ∧ r.2.mem ((c.tc : Thread nD τ).loc main_arg0) = m ((c.tc : Thread nD τ).loc main_arg0)) :=
  (θ_run defs _ _).mono (fun _ h c => ⟨(h c main_v8).trans (out_eq _), (h c main_arg0).trans (arg0_eq _)⟩)
    (run_seq scopedRefs_eq scopedSems_eq defs main (fun _ => ops) main_eq (fun _ => ops_sub) m ρ)

/-- The frame alone: the run terminates and the argument is unchanged. -/
theorem frame_ri (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c).2) (run m ρ)

end Cert.ReferenceIdeal.RefRun

end
-- ==== Proof.BMid.lean ====
/-
  Between the two kernels the program applies a short chain of host operations to the first kernel's 1x1 result: it is
  read as a scalar, truncated toward zero, turned into n·(n−1)·½ where n > 1 (zero elsewhere), and written back as a
  1x1 array for the second kernel. The chain is the same composition of operations as the reference's scalar chain.
  No host operation and no region writes the argument array.
-/
import proofs.«144286_j9947144258008_1_alg».proof.Proof.BRun
import proofs.«144286_j9947144258008_1_alg».proof.Proof.RefRun

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The host chain read at the scalar it hands to the second kernel. -/
theorem mid_v8 (X : Valuation τ sig (Elt F)) :
    StableHlo.after hostOps1_4 (StableHlo.after hostOps1_3 (StableHlo.after hostOps1_2 (StableHlo.after hostOps1_1 (StableHlo.after hostOps1 X)))) (main_v8 : DevRef τ sig)
      = shapeCast S1x1 (Cert.ReferenceIdeal.RefRun.total (F := F) (shapeCast S_ (X (main_v0 : DevRef τ sig)) shapeCasts_S1x1_S_)) shapeCasts_S_S1x1 := by
  after_results
  rfl

/-- The host chain leaves the argument array alone. -/
theorem mid_arg0 (X : Valuation τ sig (Elt F)) :
    StableHlo.after hostOps1_4 (StableHlo.after hostOps1_3 (StableHlo.after hostOps1_2 (StableHlo.after hostOps1_1 (StableHlo.after hostOps1 X)))) (main_arg0 : DevRef τ sig)
      = X (main_arg0 : DevRef τ sig) := by
  after_results

variable (m : (ℓ : Loc nD τ sig) → Buf (Elt F) ℓ) (ρ : Dev nD → PrngReg)

/-- The argument array as the second region finds it is the launch contents. -/
theorem V6_arg0 (c : Dev nD) : V6 m ρ c main_arg0 = m ((c : Thread nD τ).loc main_arg0) :=
  (mid_arg0 (W1 m ρ c)).trans ((W1_arr m ρ c 0).trans (((dat0 (V0 m ρ) c).arrAt_in 0 rfl _).trans ((A_eq0 (V0 m ρ) c 0).trans rfl)))

/-- The argument array at the end is the launch contents. -/
theorem W7_arg0 (c : Dev nD) : W7 m ρ c (Proc.devRef .tc main_arg0) = m ((c : Thread nD τ).loc main_arg0) :=
  (W7_arr m ρ c 0).trans (((dat1 (V6 m ρ) c).arrAt_in 0 rfl _).trans ((A_eq1 (V6 m ρ) c 0).trans (V6_arg0 m ρ c)))

/-- The scalar the second region finds, from the first region's result array. -/
theorem V6_v8 (c : Dev nD) : V6 m ρ c main_v8
      = shapeCast S1x1 (Cert.ReferenceIdeal.RefRun.total (F := F) (shapeCast S_ ((dat0 (V0 m ρ) c).arrAt 1 cfg0.N) shapeCasts_S1x1_S_)) shapeCasts_S_S1x1 :=
  (mid_v8 (W1 m ρ c)).trans (by rw [show W1 m ρ c (main_v0 : DevRef τ sig) = (dat0 (V0 m ρ) c).arrAt 1 cfg0.N from W1_arr m ρ c 1])

/-- THE FRAME of the program, at any float instance: it runs to the end, nothing faults, the argument ends unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c _ (mem_uc main_arg0 (by decide))).trans (W7_arg0 m ρ c)) (run m ρ)

end Cert.Kernel.Fr

end
-- ==== Proof.KRuns.lean ====
/-
  The first kernel (the running sum) of the program, seen from one grid point: the two branch conditions of its body
  decided over the 16 grid points (the accumulator is reset exactly at point 0, the result is stored exactly at
  point 15), where its result window is idle, the names of the staging and scratch memrefs the body is called
  with, and the region's resting invariant with the scratch accumulator singled out.
-/
import proofs.«144286_j9947144258008_1_alg».proof.Proof.Gen.KernelIdeal.Launch
import proofs.«144286_j9947144258008_1_alg».proof.Proof.Gen.KernelIdeal.Skeleton
import proofs.«144286_j9947144258008_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The first branch of the body (reset the accumulator) is taken: the grid coordinate is 0. -/
abbrev cond0_0 (i : grid0.Coords) : Prop := (Scalar.cmpi .ne (Scalar.extui (Scalar.cmpi .eq (BitVec.ofNat 32 (i 0).val) 0#32)) 0#32) = 1#1
/-- It holds at point 0 only. -/
theorem hcond0_0 : ∀ t : Fin cfg0.N, cond0_0 (grid0.coords t) ↔ t.val % 16 = 0 :=
  (by decide +kernel : ∀ t : Fin grid0.N, cond0_0 (grid0.coords t) ↔ t.val % 16 = 0)

/-- The second branch of the body (store the accumulator as the result) is taken: the grid coordinate is 15. -/
abbrev cond0_1 (i : grid0.Coords) : Prop := k0_cond2 i = 1#1
/-- It holds at point 15 only. -/
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

/-- The input window is never idle. -/
theorem liveAt0_0 : ∀ t : Fin cfg0.N, cfg0.idle 0 (grid0.coords t) = false := by decide +kernel
/-- Where the result is not stored the result window is idle and is not written back. -/
theorem idleAt0_1 : ∀ t : Fin cfg0.N, ¬cond0_1 (grid0.coords t) → cfg0.idle 1 (grid0.coords t) = true := by decide +kernel
theorem noFlush0_1 : ∀ t : Fin cfg0.N, ¬cond0_1 (grid0.coords t) → (cfg0.win 1).flush t = false := by decide +kernel
/-- Where the result is stored the result window is live. -/
theorem liveAt0_1 : ∀ t : Fin cfg0.N, cond0_1 (grid0.coords t) → cfg0.idle 1 (grid0.coords t) = false := by decide +kernel

/-! ## The memrefs the body is called with -/

/-- One staging buffer of the result window, through which its contents are stated. -/
abbrev VO0_1 : View sig .tc .vmem S1x1 .f32 := (Memref.whole cc0_stg1_0 : Memref sig .tc .vmem S1x1 .f32).view
/-- Each window's current staging memref at point `t`, and its wholeness. -/
abbrev ms0_0 (t : Fin cfg0.N) : Memref sig .tc .vmem S512x8192 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1 .f32 := win0_1.stage (cfg0.slots t 1)
abbrev hs0_1 (t : Fin cfg0.N) : (ms0_1 t).IsWhole := hstage0_1 ((cfg0.slots t 1).cast nbuf0_1)
/-- The scratch accumulator: a whole scoped buffer of the kernel's own. -/
abbrev scM0_0 : Memref sig .tc .vmem S1x1 .f32 := Memref.whole cc0_scratch0
/-- The same as a view. -/
abbrev VS0_0 : View sig .tc .vmem S1x1 .f32 := scM0_0.view

/-- The scoped buffers of the core that the first kernel never touches (the second kernel's staging buffers), each at
    some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The region's resting invariant: the scratch accumulator at some contents, the untouched scoped buffers, the
    generator register at some state. -/
theorem PhiA0_eq (c : Dev nD) :
    (Pipeline.ΦA spec0 c : sProp 𝕄)
      = iprop(iprop((∃ d, owns (c : Thread nD τ) scM0_0 fullShare d) ∗ rest0 c) ∗ (∃ r, prngReg c r)) := by
  unfold Pipeline.ΦA rest0; rw [scopedRest0_eq]; simp only [scM0_0, owns_whole]; try rfl

end Cert.KernelIdeal.Fr

end
-- ==== Proof.KRunA.lean ====
/-
  The symbolic run of the running-sum kernel's body in case A of its two branches.
-/
import proofs.«144286_j9947144258008_1_alg».proof.Proof.KRuns

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body of the first kernel at a point of case A, on whole memrefs: the input block at `x0`, the result buffer at contents handed back untouched, the scratch accumulator at anything; it runs to the
    continuation with the input as it was and each buffer it stored into with its stores written, as pieces (last first) that
    the symbolic run finds. -/
noncomputable def kernelRun0_A (c : Dev nD) (i : grid0.Coords) (arg1 : Memref sig .tc .vmem S512x8192 .f32) (harg1 : arg1.IsWhole) (arg2 : Memref sig .tc .vmem S1x1 .f32) (harg2 : arg2.IsWhole) (arg3 : Memref sig .tc .vmem S1x1 .f32) (harg3 : arg3.IsWhole) (hc0 : cond0_0 i) (hc1 : ¬cond0_1 i)
    (x0 : Vec F S512x8192 .f32) :
    Σ' (L1 : List (View.Piece (Elt F) S1x1 .f32)), { LS0 : List (View.Piece (Elt F) S1x1 .f32) //
      ∀ (xi1 : Vec F S1x1 .f32) (E : Set ℕ) (K : PUnit → sProp 𝕄),
        iprop(owns (c : Thread nD τ) arg1 fullShare x0 ∗ owns (c : Thread nD τ) arg2 fullShare xi1 ∗ (∃ d, owns (c : Thread nD τ) arg3 fullShare d)
            ∗ (iprop(owns (c : Thread nD τ) arg1 fullShare x0 ∗ owns (c : Thread nD τ) arg2 fullShare xi1 ∗ (∃ f, arg3.view.loc (c : Thread nD τ) ↦[arg3.view.set]{fullShare} arg3.view.writes (Elt F) f LS0)) -∗ K ⟨⟩))
          ⊢ wp frame (wpE (defs₀ (F := F)) Variants.none c none) E (cc0__sum_kernel i arg1 harg1 arg2 harg2 arg3 harg3) K } := by
  refine ⟨[], ?_, fun xi1 E K => ?run⟩
  case run =>
    simp only [cc0__sum_kernel_eq_skeleton]; unfold cc0__sum_kernel_skel
    unfold owns
    iintro ⟨⟨%f0, %hf0, H0⟩, ⟨%f1, %hf1, H1⟩, ⟨%ds0, %fs0, -, HS0⟩, Hk⟩
    obtain rfl := harg1.eq_unread hf0; obtain rfl := harg2.eq_unread hf1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

end Cert.KernelIdeal.Fr

end
-- ==== Proof.KRunB.lean ====
/-
  The symbolic run of the running-sum kernel's body in case B of its two branches.
-/
import proofs.«144286_j9947144258008_1_alg».proof.Proof.KRuns

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body of the first kernel at a point of case B, on whole memrefs: the input block at `x0`, the result buffer at contents handed back untouched, the scratch accumulator at what the point before left (`xs0`); it runs to the
    continuation with the input as it was and each buffer it stored into with its stores written, as pieces (last first) that
    the symbolic run finds. -/
noncomputable def kernelRun0_B (c : Dev nD) (i : grid0.Coords) (arg1 : Memref sig .tc .vmem S512x8192 .f32) (harg1 : arg1.IsWhole) (arg2 : Memref sig .tc .vmem S1x1 .f32) (harg2 : arg2.IsWhole) (arg3 : Memref sig .tc .vmem S1x1 .f32) (harg3 : arg3.IsWhole) (hc0 : ¬cond0_0 i) (hc1 : ¬cond0_1 i)
    (x0 : Vec F S512x8192 .f32) (xs0 : Vec F S1x1 .f32) :
    Σ' (L1 : List (View.Piece (Elt F) S1x1 .f32)), { LS0 : List (View.Piece (Elt F) S1x1 .f32) //
      ∀ (xi1 : Vec F S1x1 .f32) (E : Set ℕ) (K : PUnit → sProp 𝕄),
        iprop(owns (c : Thread nD τ) arg1 fullShare x0 ∗ owns (c : Thread nD τ) arg2 fullShare xi1 ∗ owns (c : Thread nD τ) arg3 fullShare xs0
            ∗ (iprop(owns (c : Thread nD τ) arg1 fullShare x0 ∗ owns (c : Thread nD τ) arg2 fullShare xi1 ∗ (∃ f, arg3.view.loc (c : Thread nD τ) ↦[arg3.view.set]{fullShare} arg3.view.writes (Elt F) f LS0)) -∗ K ⟨⟩))
          ⊢ wp frame (wpE (defs₀ (F := F)) Variants.none c none) E (cc0__sum_kernel i arg1 harg1 arg2 harg2 arg3 harg3) K } := by
  refine ⟨[], ?_, fun xi1 E K => ?run⟩
  case run =>
    simp only [cc0__sum_kernel_eq_skeleton]; unfold cc0__sum_kernel_skel
    unfold owns
    iintro ⟨⟨%f0, %hf0, H0⟩, ⟨%f1, %hf1, H1⟩, ⟨%fs0, %hfs0, HS0⟩, Hk⟩
    obtain rfl := harg1.eq_unread hf0; obtain rfl := harg2.eq_unread hf1; obtain rfl := harg3.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

end Cert.KernelIdeal.Fr

end
-- ==== Proof.KRunC.lean ====
/-
  The symbolic run of the running-sum kernel's body in case C of its two branches.
-/
import proofs.«144286_j9947144258008_1_alg».proof.Proof.KRuns

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body of the first kernel at a point of case C, on whole memrefs: the input block at `x0`, the result buffer at anything, the scratch accumulator at what the point before left (`xs0`); it runs to the
    continuation with the input as it was and each buffer it stored into with its stores written, as pieces (last first) that
    the symbolic run finds. -/
noncomputable def kernelRun0_C (c : Dev nD) (i : grid0.Coords) (arg1 : Memref sig .tc .vmem S512x8192 .f32) (harg1 : arg1.IsWhole) (arg2 : Memref sig .tc .vmem S1x1 .f32) (harg2 : arg2.IsWhole) (arg3 : Memref sig .tc .vmem S1x1 .f32) (harg3 : arg3.IsWhole) (hc0 : ¬cond0_0 i) (hc1 : cond0_1 i)
    (x0 : Vec F S512x8192 .f32) (xs0 : Vec F S1x1 .f32) :
    Σ' (L1 : List (View.Piece (Elt F) S1x1 .f32)), { LS0 : List (View.Piece (Elt F) S1x1 .f32) //
      ∀ (E : Set ℕ) (K : PUnit → sProp 𝕄),
        iprop(owns (c : Thread nD τ) arg1 fullShare x0 ∗ (∃ d, owns (c : Thread nD τ) arg2 fullShare d) ∗ owns (c : Thread nD τ) arg3 fullShare xs0
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f LS0)) -∗ K ⟨⟩))
          ⊢ wp frame (wpE (defs₀ (F := F)) Variants.none c none) E (cc0__sum_kernel i arg1 harg1 arg2 harg2 arg3 harg3) K } := by
  refine ⟨?_, ?_, fun E K => ?run⟩
  case run =>
    simp only [cc0__sum_kernel_eq_skeleton]; unfold cc0__sum_kernel_skel
    unfold owns
    iintro ⟨⟨%f0, %hf0, H0⟩, ⟨%d1, %f1, -, H1⟩, ⟨%fs0, %hfs0, HS0⟩, Hk⟩
    obtain rfl := harg1.eq_unread hf0; obtain rfl := harg3.eq_unread hfs0
    sl_exec (disch := first | exact hc0 | exact hc1)
    sl_step
    iapply Hk
    isplitl [H0]
    · iexists _; isplitr; · ipureintro; exact harg1.read_unread _
      iexact H0
    isplitl [H1]; · iexists _; iexact H1
    iexists _; iexact HS0

end Cert.KernelIdeal.Fr

end
-- ==== Proof.KFrame0.lean ====
/-
  The first kernel (the running sum) as one region of the program, at the buffer contents `V` the region is entered
  with. After point `n` the 1x1 scratch accumulator holds what the body's stores leave there: at point 0 the
  block's sum added to the zero just stored, at a later point the block's sum added to what the point before left.
  The result window is stored at point 15 only (the accumulator's value) and is idle, and not written back,
  elsewhere. The region's invariant carries the accumulator's contents from point to point.
-/
import proofs.«144286_j9947144258008_1_alg».proof.Proof.KRunA
import proofs.«144286_j9947144258008_1_alg».proof.Proof.KRunB
import proofs.«144286_j9947144258008_1_alg».proof.Proof.KRunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves in the scratch accumulator and in the result buffer -/

theorem scover0_A (c : Dev nD) (i : grid0.Coords) (arg1 : Memref sig .tc .vmem S512x8192 .f32) (harg1 : arg1.IsWhole) (arg2 : Memref sig .tc .vmem S1x1 .f32) (harg2 : arg2.IsWhole) (arg3 : Memref sig .tc .vmem S1x1 .f32) (harg3 : arg3.IsWhole) (hc0 : cond0_0 i) (hc1 : ¬cond0_1 i)
    (x0 : Vec F S512x8192 .f32) (y : S1x1.Idx) :
    ∃ pc ∈ (kernelRun0_A c i arg1 harg1 arg2 harg2 arg3 harg3 hc0 hc1 x0).2.1, y ∈ pc.1.set :=
  View.cover_of_tiledL (kernelRun0_A c i arg1 harg1 arg2 harg2 arg3 harg3 hc0 hc1 x0).2.1 S1x1.size (by sl_kernel_rfl) y

/-- What a point of case A leaves in the scratch accumulator. -/
def sout0_A (c : Dev nD) (i : grid0.Coords) (arg1 : Memref sig .tc .vmem S512x8192 .f32) (harg1 : arg1.IsWhole) (arg2 : Memref sig .tc .vmem S1x1 .f32) (harg2 : arg2.IsWhole) (arg3 : Memref sig .tc .vmem S1x1 .f32) (harg3 : arg3.IsWhole) (hc0 : cond0_0 i) (hc1 : ¬cond0_1 i)
    (x0 : Vec F S512x8192 .f32) : Vec F S1x1 .f32 :=
  VS0_0.read (Elt F) (VS0_0.writes (Elt F) VS0_0.junk (kernelRun0_A c i arg1 harg1 arg2 harg2 arg3 harg3 hc0 hc1 x0).2.1)

theorem scover0_B (c : Dev nD) (i : grid0.Coords) (arg1 : Memref sig .tc .vmem S512x8192 .f32) (harg1 : arg1.IsWhole) (arg2 : Memref sig .tc .vmem S1x1 .f32) (harg2 : arg2.IsWhole) (arg3 : Memref sig .tc .vmem S1x1 .f32) (harg3 : arg3.IsWhole) (hc0 : ¬cond0_0 i) (hc1 : ¬cond0_1 i)
    (x0 : Vec F S512x8192 .f32) (xs0 : Vec F S1x1 .f32) (y : S1x1.Idx) :
    ∃ pc ∈ (kernelRun0_B c i arg1 harg1 arg2 harg2 arg3 harg3 hc0 hc1 x0 xs0).2.1, y ∈ pc.1.set :=
  View.cover_of_tiledL (kernelRun0_B c i arg1 harg1 arg2 harg2 arg3 harg3 hc0 hc1 x0 xs0).2.1 S1x1.size (by sl_kernel_rfl) y

/-- What a point of case B leaves in the scratch accumulator. -/
def sout0_B (c : Dev nD) (i : grid0.Coords) (arg1 : Memref sig .tc .vmem S512x8192 .f32) (harg1 : arg1.IsWhole) (arg2 : Memref sig .tc .vmem S1x1 .f32) (harg2 : arg2.IsWhole) (arg3 : Memref sig .tc .vmem S1x1 .f32) (harg3 : arg3.IsWhole) (hc0 : ¬cond0_0 i) (hc1 : ¬cond0_1 i)
    (x0 : Vec F S512x8192 .f32) (xs0 : Vec F S1x1 .f32) : Vec F S1x1 .f32 :=
  VS0_0.read (Elt F) (VS0_0.writes (Elt F) VS0_0.junk (kernelRun0_B c i arg1 harg1 arg2 harg2 arg3 harg3 hc0 hc1 x0 xs0).2.1)

theorem scover0_C (c : Dev nD) (i : grid0.Coords) (arg1 : Memref sig .tc .vmem S512x8192 .f32) (harg1 : arg1.IsWhole) (arg2 : Memref sig .tc .vmem S1x1 .f32) (harg2 : arg2.IsWhole) (arg3 : Memref sig .tc .vmem S1x1 .f32) (harg3 : arg3.IsWhole) (hc0 : ¬cond0_0 i) (hc1 : cond0_1 i)
    (x0 : Vec F S512x8192 .f32) (xs0 : Vec F S1x1 .f32) (y : S1x1.Idx) :
    ∃ pc ∈ (kernelRun0_C c i arg1 harg1 arg2 harg2 arg3 harg3 hc0 hc1 x0 xs0).2.1, y ∈ pc.1.set :=
  View.cover_of_tiledL (kernelRun0_C c i arg1 harg1 arg2 harg2 arg3 harg3 hc0 hc1 x0 xs0).2.1 S1x1.size (by sl_kernel_rfl) y

/-- What a point of case C leaves in the scratch accumulator. -/
def sout0_C (c : Dev nD) (i : grid0.Coords) (arg1 : Memref sig .tc .vmem S512x8192 .f32) (harg1 : arg1.IsWhole) (arg2 : Memref sig .tc .vmem S1x1 .f32) (harg2 : arg2.IsWhole) (arg3 : Memref sig .tc .vmem S1x1 .f32) (harg3 : arg3.IsWhole) (hc0 : ¬cond0_0 i) (hc1 : cond0_1 i)
    (x0 : Vec F S512x8192 .f32) (xs0 : Vec F S1x1 .f32) : Vec F S1x1 .f32 :=
  VS0_0.read (Elt F) (VS0_0.writes (Elt F) VS0_0.junk (kernelRun0_C c i arg1 harg1 arg2 harg2 arg3 harg3 hc0 hc1 x0 xs0).2.1)

theorem cover0_C_1 (c : Dev nD) (i : grid0.Coords) (arg1 : Memref sig .tc .vmem S512x8192 .f32) (harg1 : arg1.IsWhole) (arg2 : Memref sig .tc .vmem S1x1 .f32) (harg2 : arg2.IsWhole) (arg3 : Memref sig .tc .vmem S1x1 .f32) (harg3 : arg3.IsWhole) (hc0 : ¬cond0_0 i) (hc1 : cond0_1 i)
    (x0 : Vec F S512x8192 .f32) (xs0 : Vec F S1x1 .f32) (y : S1x1.Idx) :
    ∃ pc ∈ (kernelRun0_C c i arg1 harg1 arg2 harg2 arg3 harg3 hc0 hc1 x0 xs0).1, y ∈ pc.1.set :=
  View.cover_of_tiledL (kernelRun0_C c i arg1 harg1 arg2 harg2 arg3 harg3 hc0 hc1 x0 xs0).1 S1x1.size (by sl_kernel_rfl) y

/-- What a point of case C leaves in the result window's staging buffer. -/
def out0_C_1 (c : Dev nD) (i : grid0.Coords) (arg1 : Memref sig .tc .vmem S512x8192 .f32) (harg1 : arg1.IsWhole) (arg2 : Memref sig .tc .vmem S1x1 .f32) (harg2 : arg2.IsWhole) (arg3 : Memref sig .tc .vmem S1x1 .f32) (harg3 : arg3.IsWhole) (hc0 : ¬cond0_0 i) (hc1 : cond0_1 i)
    (x0 : Vec F S512x8192 .f32) (xs0 : Vec F S1x1 .f32) : Vec F S1x1 .f32 :=
  VO0_1.read (Elt F) (VO0_1.writes (Elt F) VO0_1.junk (kernelRun0_C c i arg1 harg1 arg2 harg2 arg3 harg3 hc0 hc1 x0 xs0).1)

/-! ## What the result buffer and the accumulator hold after each point -/

theorem N0 : cfg0.N = 16 := N_0

/-- After the body at position `n`: the result window's staging buffer (named only where it is stored, at point 15;
    elsewhere a value nothing consults) and the scratch accumulator, by recursion on the point. -/
def outsAt0 (c : Dev nD) : (n : ℕ) → n < cfg0.N → Vec F S1x1 .f32 × Vec F S1x1 .f32
  | 0, hn => (sout0_A c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩), sout0_A c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩))
  | n + 1, hn =>
    if h1 : (n + 1) % 16 = 15 then
      (out0_C_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => (fun h => by (try dsimp only at h); have hN : n + 1 < 16 := lt_of_lt_of_eq hn N0; omega) ((hcond0_0 ⟨n + 1, hn⟩).mp h)) ((hcond0_1 ⟨n + 1, hn⟩).mpr h1) (iblk0 V c 0 ⟨n + 1, hn⟩) (outsAt0 c n (Nat.lt_of_succ_lt hn)).2, sout0_C c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => (fun h => by (try dsimp only at h); have hN : n + 1 < 16 := lt_of_lt_of_eq hn N0; omega) ((hcond0_0 ⟨n + 1, hn⟩).mp h)) ((hcond0_1 ⟨n + 1, hn⟩).mpr h1) (iblk0 V c 0 ⟨n + 1, hn⟩) (outsAt0 c n (Nat.lt_of_succ_lt hn)).2)
    else
      (sout0_B c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => (fun h => by (try dsimp only at h); have hN : n + 1 < 16 := lt_of_lt_of_eq hn N0; omega) ((hcond0_0 ⟨n + 1, hn⟩).mp h)) (fun h => h1 ((hcond0_1 ⟨n + 1, hn⟩).mp h)) (iblk0 V c 0 ⟨n + 1, hn⟩) (outsAt0 c n (Nat.lt_of_succ_lt hn)).2, sout0_B c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => (fun h => by (try dsimp only at h); have hN : n + 1 < 16 := lt_of_lt_of_eq hn N0; omega) ((hcond0_0 ⟨n + 1, hn⟩).mp h)) (fun h => h1 ((hcond0_1 ⟨n + 1, hn⟩).mp h)) (iblk0 V c 0 ⟨n + 1, hn⟩) (outsAt0 c n (Nat.lt_of_succ_lt hn)).2)

/-- `outsAt0` at point 0. -/
theorem outsAt0_A (c : Dev nD) (t : Fin cfg0.N) (h0 : t.val % 16 = 0) (h1 : ¬t.val % 16 = 15) :
    outsAt0 V c t.val t.isLt = (sout0_A c (grid0.coords t) (ms0_0 t) (hs0_0 t) (ms0_1 t) (hs0_1 t) scM0_0 (Memref.isWhole_whole _) ((hcond0_0 t).mpr h0) (fun h => h1 ((hcond0_1 t).mp h)) (iblk0 V c 0 t), sout0_A c (grid0.coords t) (ms0_0 t) (hs0_0 t) (ms0_1 t) (hs0_1 t) scM0_0 (Memref.isWhole_whole _) ((hcond0_0 t).mpr h0) (fun h => h1 ((hcond0_1 t).mp h)) (iblk0 V c 0 t)) := by
  obtain ⟨n, hn⟩ := t
  cases n with
  | zero => exact rfl
  | succ n => exact (by exfalso; (try dsimp only at h0); have hN : n + 1 < 16 := lt_of_lt_of_eq hn N0; omega)

/-- `outsAt0` at a point that neither resets nor stores the result: over what the point before left. -/
theorem outsAt0_B (c : Dev nD) (t : Fin cfg0.N) (h0 : ¬t.val % 16 = 0) (h1 : ¬t.val % 16 = 15) :
    outsAt0 V c t.val t.isLt = (sout0_B c (grid0.coords t) (ms0_0 t) (hs0_0 t) (ms0_1 t) (hs0_1 t) scM0_0 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2, sout0_B c (grid0.coords t) (ms0_0 t) (hs0_0 t) (ms0_1 t) (hs0_1 t) scM0_0 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h1).trans rfl

/-- `outsAt0` at point 15: over what the point before left. -/
theorem outsAt0_C (c : Dev nD) (t : Fin cfg0.N) (h0 : ¬t.val % 16 = 0) (h1 : t.val % 16 = 15) :
    outsAt0 V c t.val t.isLt = (out0_C_1 c (grid0.coords t) (ms0_0 t) (hs0_0 t) (ms0_1 t) (hs0_1 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2, sout0_C c (grid0.coords t) (ms0_0 t) (hs0_0 t) (ms0_1 t) (hs0_1 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_pos h1).trans rfl

/-- The region's invariant before position `n`: before the first point the resting one (the accumulator at anything);
    afterwards the accumulator at what the point before left in it, the untouched scoped buffers, the generator
    register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ rest0 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2) ∗ rest0 c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2) ∗ rest0 c) ∗ (∃ r, prngReg c r)) := by
  cases n with
  | zero => exact absurd rfl hz
  | succ n => rfl

/-! ## The region's proof data -/

/-- The proof data of the first kernel's pipeline on core `c`: the arrays as the region finds them; after the body at point
    `t` the input's buffer at its block and the result's at `outsAt0`; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
/-- The body at any point: the input's memref holds its block; the closed forms say which case the point is in; the
    invariant hands the body the accumulator at what the point before left (at anything at the first point) and takes it
    back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS V c (t.val + 1) t.isLt from rfl, PhiS_succ]
  have hN : t.val < 16 := lt_of_lt_of_eq t.isLt N0
  rw [show (dat0 V c).leavesExact 0 t = owns (c : Thread nD τ) (ms0_0 t) fullShare ((dat0 V c).after 0 t) from by
    unfold Dat.leavesExact; rw [liveAt0_0 t], after0_0]
  by_cases h0 : t.val % 16 = 0
  · have h1 : ¬t.val % 16 = 15 := by omega
    have hz : t.val = 0 := by omega
    rw [Dat.leavesExact_idle (dat0 V c) 1 t (idleAt0_1 t (fun h => h1 ((hcond0_1 t).mp h))) (noFlush0_1 t (fun h => h1 ((hcond0_1 t).mp h)))]
    rw [outsAt0_A V c t h0 h1]
    unfold sout0_A; (try dsimp only)
    rw [PhiS_castSucc V c t, PhiS_zero V c _ _ hz, PhiA0_eq]
    iintro ⟨⟨⟨HS0, Hr⟩, Hg⟩, Ho, ⟨%d0, H0⟩, ⟨%d1, H1⟩⟩
    iapply ((kernelRun0_A c (grid0.coords t) _ _ _ _ _ _ ((hcond0_0 t).mpr h0) (fun h => h1 ((hcond0_1 t).mp h)) (iblk0 V c 0 t)).2.2 _ Set.univ _)
    isplitl [H0]; · iexact H0
    isplitl [H1]; · iexact H1
    isplitl [HS0]; · iexact HS0
    iintro ⟨H0, H1, ⟨%es0, HS0⟩⟩
    isplitl [HS0 Hr Hg]
    · isplitl [HS0 Hr]
      · isplitl [HS0]
        · unfold owns; iexists _; isplitr
          swap; · iexact HS0
          ipureintro; exact View.read_writes_of_cover _ _ _ _ _ (scover0_A c _ _ _ _ _ _ _ _ _ _)
        iexact Hr
      iexact Hg
    isplitl [Ho]; · iexact Ho
    isplitl [H0]; · iexact H0
    iexists _; iexact H1
  · have hz : t.val ≠ 0 := by omega
    by_cases h1 : t.val % 16 = 15
    · rw [show (dat0 V c).leavesExact 1 t = owns (c : Thread nD τ) (ms0_1 t) fullShare ((dat0 V c).after 1 t) from by
        unfold Dat.leavesExact; rw [liveAt0_1 t ((hcond0_1 t).mpr h1)], after0_1]
      rw [outsAt0_C V c t h0 h1]
      unfold out0_C_1 sout0_C; (try dsimp only)
      rw [PhiS_castSucc V c t, PhiS_pos V c _ _ hz]
      iintro ⟨⟨⟨HS0, Hr⟩, Hg⟩, Ho, ⟨%d0, H0⟩, ⟨%d1, H1⟩⟩
      iapply ((kernelRun0_C c (grid0.coords t) _ _ _ _ _ _ (fun h => h0 ((hcond0_0 t).mp h)) ((hcond0_1 t).mpr h1) (iblk0 V c 0 t) _).2.2 Set.univ _)
      isplitl [H0]; · iexact H0
      isplitl [H1]; · iexists _; iexact H1
      isplitl [HS0]; · iexact HS0
      iintro ⟨H0, ⟨%e1, H1⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_C c _ _ _ _ _ _ _ _ _ _ _)
          iexact Hr
        iexact Hg
      isplitl [Ho]; · iexact Ho
      isplitl [H0]; · iexact H0
      unfold owns; iexists _; isplitr
      swap; · iexact H1
      ipureintro; exact View.read_writes_of_cover _ _ _ _ _ (cover0_C_1 c _ _ _ _ _ _ _ _ _ _ _)
    · rw [Dat.leavesExact_idle (dat0 V c) 1 t (idleAt0_1 t (fun h => h1 ((hcond0_1 t).mp h))) (noFlush0_1 t (fun h => h1 ((hcond0_1 t).mp h)))]
      rw [outsAt0_B V c t h0 h1]
      unfold sout0_B; (try dsimp only)
      rw [PhiS_castSucc V c t, PhiS_pos V c _ _ hz]
      iintro ⟨⟨⟨HS0, Hr⟩, Hg⟩, Ho, ⟨%d0, H0⟩, ⟨%d1, H1⟩⟩
      iapply ((kernelRun0_B c (grid0.coords t) _ _ _ _ _ _ (fun h => h0 ((hcond0_0 t).mp h)) (fun h => h1 ((hcond0_1 t).mp h)) (iblk0 V c 0 t) _).2.2 _ Set.univ _)
      isplitl [H0]; · iexact H0
      isplitl [H1]; · iexact H1
      isplitl [HS0]; · iexact HS0
      iintro ⟨H0, H1, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_B c _ _ _ _ _ _ _ _ _ _ _)
          iexact Hr
        iexact Hg
      isplitl [Ho]; · iexact Ho
      isplitl [H0]; · iexact H0
      iexists _; iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the resting one back: the accumulator's named contents are forgotten. -/
theorem hout0 (c : Dev nD) : (dat0 V c).Φ (Fin.last cfg0.N) ⊢ Pipeline.ΦA spec0 c := by
  have ht : (Fin.last cfg0.N).val ≠ 0 := by rw [Fin.val_last]; have := N0; omega
  rw [show (dat0 V c).Φ (Fin.last cfg0.N) = PhiS V c (Fin.last cfg0.N).val (Nat.le_of_lt_succ (Fin.last cfg0.N).isLt) from rfl, PhiS_pos V c _ _ ht, PhiA0_eq]
  iintro ⟨⟨HS0, Hr⟩, Hg⟩
  isplitl [HS0 Hr]
  · isplitl [HS0]
    · iexists _; iexact HS0
    iexact Hr
  iexact Hg

end Cert.KernelIdeal.Fr

end
-- ==== Proof.KFrame1.lean ====
/-
  The second kernel (add the scalar to every entry) as one region of the program, at the buffer contents `V` the region
  is entered with: at each of its 32 grid points the body loads a 256x8192 block of the array and the 1x1 scalar, and
  stores their sum (the scalar splat over the block) into the result's block.
-/
import proofs.«144286_j9947144258008_1_alg».proof.Proof.Gen.KernelIdeal.Launch
import proofs.«144286_j9947144258008_1_alg».proof.Proof.Gen.KernelIdeal.Skeleton
import proofs.«144286_j9947144258008_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S256x8192 := Rect.unit (s := S256x8192) ![0, 0] S256x8192.size inb_S256x8192_S256x8192_0_0
abbrev r1_1 : Rect S1x1 := Rect.unit (s := S1x1) ![0, 0] S1x1.size inb_S1x1_S1x1_0_0

/-- The result window's staging buffer after the body, from the input windows' blocks: its one store. -/
def out1_2 (x0 : Vec F S256x8192 .f32) (x1 : Vec F S1x1 .f32) : Vec F S256x8192 .f32 :=
  View.canon [⟨r1_0, k1_pay1 (View.ld x0 r1_0) (View.ld x1 r1_1)⟩]

/-- The store covers the buffer. -/
theorem cover1_2 (p0 : Vec F S256x8192 .f32) (y : S256x8192.Idx) :
    ∃ pc ∈ ([⟨r1_0, p0⟩] : List (View.Piece (Elt F) S256x8192 .f32)), y ∈ pc.1.set :=
  View.cover_of_tiled [⟨r1_0, p0⟩] S256x8192.size (by rfl) y

/-! ## The body's triple -/

set_option maxHeartbeats 1000000 in
/-- The kernel body on whole staging memrefs, the inputs' at read contents and the result's at anything, runs to the
    continuation holding the inputs' as they were and the result's at `out1_2` of the inputs'. -/
theorem sound_kernel1 (c : Dev nD) (E : Set ℕ) (i : grid1.Coords) (arg1 : Memref sig .tc .vmem S256x8192 .f32) (harg1 : arg1.IsWhole) (arg2 : Memref sig .tc .vmem S1x1 .f32) (harg2 : arg2.IsWhole) (arg3 : Memref sig .tc .vmem S256x8192 .f32) (harg3 : arg3.IsWhole)
    (x0 : Vec F S256x8192 .f32) (x1 : Vec F S1x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__add_kernel i arg1 harg1 arg2 harg2 arg3 harg3) K := by
  simp only [cc1__add_kernel_eq_skeleton]; unfold cc1__add_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The region's proof data -/

/-- The proof data of the second kernel's pipeline on core `c`: the arrays as the region finds them; after the body at point
    `t` each input's buffer at its block and the result's at `out1_2` of the input blocks; the resting invariant;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so `sound_kernel1` applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KRun.lean ====
/-
  The whole program as a run: the buffer contents at every boundary between its seven items (the running-sum region,
  five stretches of host operations, the add region) as a fold from the launch memory, each region's proof data at its
  entry contents, and the launch: every weakly fair execution terminates, nothing faults, and at the end every unscoped
  buffer holds the last boundary's contents.
-/
import proofs.«144286_j9947144258008_1_alg».proof.Proof.KFrame0
import proofs.«144286_j9947144258008_1_alg».proof.Proof.KFrame1

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary: a fold through the program -/

/-- Core `c`'s buffers at launch (the first region's entry). -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- At the first region's exit: its arrays at what the pipeline leaves, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After each stretch of host operations. -/
abbrev W2 : Dev nD → Valuation τ sig (Elt F) := fun c => StableHlo.after hostOps1 (W1 m ρ c)
abbrev W3 : Dev nD → Valuation τ sig (Elt F) := fun c => StableHlo.after hostOps1_1 (W2 m ρ c)
abbrev W4 : Dev nD → Valuation τ sig (Elt F) := fun c => StableHlo.after hostOps1_2 (W3 m ρ c)
abbrev W5 : Dev nD → Valuation τ sig (Elt F) := fun c => StableHlo.after hostOps1_3 (W4 m ρ c)
/-- The second region's entry. -/
abbrev W6 : Dev nD → Valuation τ sig (Elt F) := fun c => StableHlo.after hostOps1_4 (W5 m ρ c)
abbrev V6 : (c : Dev nD) → (b : Ref sig .tc) → Buf (Elt F) ((c : Thread nD τ).loc b) := fun c b => W6 m ρ c b
/-- At the second region's exit. -/
def W7 (c : Dev nD) : Valuation τ sig (Elt F) :=
  Pipeline.withArrays spec1 c (W6 m ρ c) fun w => (dat1 (V6 m ρ) c).arrAt w cfg1.N
theorem W7_arr (c : Dev nD) (w : Fin cfg1.W) :
    W7 m ρ c (Proc.devRef .tc (Pipeline.arrRef spec1 w)) = (dat1 (V6 m ρ) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m ρ c (Proc.devRef .tc b) = W6 m ρ c (Proc.devRef .tc b) := by
  unfold W7; exact Pipeline.withArrays_of_ne spec1 c _ _ b hb
abbrev V7 : (c : Dev nD) → (b : Ref sig .tc) → Buf (Elt F) ((c : Thread nD τ).loc b) := fun c b => W7 m ρ c b
theorem hF1 (c : Dev nD) (w : Fin cfg1.W) : (dat1 (V6 m ρ) c).arrAt w cfg1.N = V7 m ρ c (Pipeline.arrRef spec1 w) :=
  (W7_arr m ρ c w).symm
theorem hrest1 (c : Dev nD) : ∀ b, b ∉ Finset.univ.image (Pipeline.arrRef spec1) → V7 m ρ c b = V6 m ρ c b :=
  fun b hb => W7_of_ne m ρ c b fun w e => hb (Finset.mem_image.mpr ⟨w, Finset.mem_univ _, e⟩)

/-! ## The proof data family and the thread state -/

/-- No pipeline has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V6 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state and the core's dues, none. -/
abbrev R (c : Dev nD) : sProp 𝕄 := iprop((∃ r, prngReg c r) ∗ ∃ W, owes (c : Thread nD τ) (0 : CellTallies nD τ sig Unit) W)
/-- A stretch of host operations as an item: over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register
    at some state. -/
abbrev Tₙ (c : Dev nD) : sProp 𝕄 := iprop(StableHlo.held (c : Thread nD τ) (Pipeline.ucRefs τ sig) (W7 m ρ c) ∗ ∃ r, prngReg c r)

/-! ## The regions as items -/

-- `iapply` of a library lemma stated over the pinned configuration unifies only when unification may unfold plain
-- definitions in a metavariable's type
set_option backward.isDefEq.respectTransparency.types false in
/-- Region 0 over the thread state: entered from every unscoped buffer at the contents before it, left at the contents
    after it. Its arrays are split out of the unscoped buffers and put back at the exit contents; the generator register
    goes into the region's invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show iprop(iprop(∃ r, prngReg c r) ∗ Pipeline.prefHeld (pcfgs (F := F) 0).pre c (fun _ => fullShare) (adm (F := F) 0).1 ∗ Pipeline.scopedRest spec0 c) ⊢ (Pipeline.ΦA spec0 c : sProp 𝕄) from ?_).trans (hin0 (V0 m ρ) c)
    unfold Pipeline.ΦA
    iintro ⟨Hp, -, Hr⟩
    isplitl [Hr]; · iexact Hr
    iexact Hp
  hout c := by
    rw [Pipeline.ownSems0_none]
    refine (hout0 (V0 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over the pinned configuration unifies only when unification may unfold plain
-- definitions in a metavariable's type
set_option backward.isDefEq.respectTransparency.types false in
/-- Region 1 over the thread state: entered from every unscoped buffer at the contents before it, left at the contents
    after it. Its arrays are split out of the unscoped buffers and put back at the exit contents; the generator register
    goes into the region's invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V6 m ρ) c).loose
  hwaits := Pipeline.hwaits_of_owed_zero _ _ _ _ L lv 1 fun _ _ => rfl
  pre c := iprop(StableHlo.held (c : Thread nD τ) (Pipeline.ucRefs τ sig) (W6 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V6 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V6 m ρ c) (V7 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as items, and the launch -/

/-- The program's seven items in order. -/
abbrev segs : List (Pipeline.Seg (pcfgs (F := F)) adm (pdats m ρ) () defs₀ 𝒱₀ L lv) :=
  [ .region (reg0 m ρ),
    .host (hseg hostOps1 hostOps1_sub hostOps1_fresh (W1 m ρ)),
    .host (hseg hostOps1_1 hostOps1_1_sub hostOps1_1_fresh (W2 m ρ)),
    .host (hseg hostOps1_2 hostOps1_2_sub hostOps1_2_fresh (W3 m ρ)),
    .host (hseg hostOps1_3 hostOps1_3_sub hostOps1_3_fresh (W4 m ρ)),
    .host (hseg hostOps1_4 hostOps1_4_sub hostOps1_4_fresh (W5 m ρ)),
    .region (reg1 m ρ) ]

set_option backward.isDefEq.respectTransparency.types false in
/-- At the compiled mesh, from any memory with zero counters, every weakly fair execution of the program on the
    TensorCores terminates, nothing faulting, and every final state has every unscoped buffer at the last boundary's
    contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by
      rewrite [main_chain c, Pipeline.Seg.run_eq_chain,
        show (segs m ρ).map Pipeline.Seg.prog = [
          Prog.lift (.customCall (Pipeline.entry 0) ()),
          StableHlo.seq hostOps1,
          StableHlo.seq hostOps1_1,
          StableHlo.seq hostOps1_2,
          StableHlo.seq hostOps1_3,
          StableHlo.seq hostOps1_4,
          Prog.lift (.customCall (Pipeline.entry 1) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

end Cert.KernelIdeal.Fr

end
-- ==== Proof.KMid.lean ====
/-
  Between the two kernels the program applies a short chain of host operations to the first kernel's 1x1 result: it is
  read as a scalar, truncated toward zero, turned into n·(n−1)·½ where n > 1 (zero elsewhere), and written back as a
  1x1 array for the second kernel. The chain is the same composition of operations as the reference's scalar chain.
  No host operation and no region writes the argument array.
-/
import proofs.«144286_j9947144258008_1_alg».proof.Proof.KRun
import proofs.«144286_j9947144258008_1_alg».proof.Proof.RefRun

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The host chain read at the scalar it hands to the second kernel. -/
theorem mid_v8 (X : Valuation τ sig (Elt F)) :
    StableHlo.after hostOps1_4 (StableHlo.after hostOps1_3 (StableHlo.after hostOps1_2 (StableHlo.after hostOps1_1 (StableHlo.after hostOps1 X)))) (main_v8 : DevRef τ sig)
      = shapeCast S1x1 (Cert.ReferenceIdeal.RefRun.total (F := F) (shapeCast S_ (X (main_v0 : DevRef τ sig)) shapeCasts_S1x1_S_)) shapeCasts_S_S1x1 := by
  after_results
  rfl

/-- The host chain leaves the argument array alone. -/
theorem mid_arg0 (X : Valuation τ sig (Elt F)) :
    StableHlo.after hostOps1_4 (StableHlo.after hostOps1_3 (StableHlo.after hostOps1_2 (StableHlo.after hostOps1_1 (StableHlo.after hostOps1 X)))) (main_arg0 : DevRef τ sig)
      = X (main_arg0 : DevRef τ sig) := by
  after_results

variable (m : (ℓ : Loc nD τ sig) → Buf (Elt F) ℓ) (ρ : Dev nD → PrngReg)

/-- The argument array as the second region finds it is the launch contents. -/
theorem V6_arg0 (c : Dev nD) : V6 m ρ c main_arg0 = m ((c : Thread nD τ).loc main_arg0) :=
  (mid_arg0 (W1 m ρ c)).trans ((W1_arr m ρ c 0).trans (((dat0 (V0 m ρ) c).arrAt_in 0 rfl _).trans ((A_eq0 (V0 m ρ) c 0).trans rfl)))

/-- The argument array at the end is the launch contents. -/
theorem W7_arg0 (c : Dev nD) : W7 m ρ c (Proc.devRef .tc main_arg0) = m ((c : Thread nD τ).loc main_arg0) :=
  (W7_arr m ρ c 0).trans (((dat1 (V6 m ρ) c).arrAt_in 0 rfl _).trans ((A_eq1 (V6 m ρ) c 0).trans (V6_arg0 m ρ c)))

/-- The scalar the second region finds, from the first region's result array. -/
theorem V6_v8 (c : Dev nD) : V6 m ρ c main_v8
      = shapeCast S1x1 (Cert.ReferenceIdeal.RefRun.total (F := F) (shapeCast S_ ((dat0 (V0 m ρ) c).arrAt 1 cfg0.N) shapeCasts_S1x1_S_)) shapeCasts_S_S1x1 :=
  (mid_v8 (W1 m ρ c)).trans (by rw [show W1 m ρ c (main_v0 : DevRef τ sig) = (dat0 (V0 m ρ) c).arrAt 1 cfg0.N from W1_arr m ρ c 1])

/-- THE FRAME of the program, at any float instance: it runs to the end, nothing faults, the argument ends unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c _ (mem_uc main_arg0 (by decide))).trans (W7_arg0 m ρ c)) (run m ρ)

end Cert.KernelIdeal.Fr

end
-- ==== Proof.LibBlockAcc.lean ====
/-
  An accumulator fed one block of consecutive positions at a time.

  In a commutative additive monoid, a sum over `a * b` consecutive positions is the sum over `a` blocks of the sums
  over each block's `b` positions; an accumulator that starts at zero and receives block `k`'s sum at step `k`
  therefore holds, after `k` steps, the sum over the first `k * b` positions, and after all the steps the whole sum.
  Only commutativity and associativity of addition are used, so this holds for the extended reals with their
  infinities. (For a kernel that walks a contraction axis in blocks, in a loop or over a grid axis, accumulating each
  block's partial product, against a reference that contracts the whole axis at once.)
-/
import Mathlib

namespace BlockAcc

/-- A sum over `a * b` consecutive positions is the sum over `a` blocks of the sums over each block's `b` positions. -/
theorem sum_range_blocks {M : Type*} [AddCommMonoid M] (f : ℕ → M) (a b : ℕ) :
    ∑ n ∈ Finset.range (a * b), f n = ∑ i ∈ Finset.range a, ∑ j ∈ Finset.range b, f (i * b + j) := by
  induction a with
  | zero => simp
  | succ a ih =>
    rw [Nat.succ_mul, Finset.sum_range_add, ih, Finset.sum_range_succ]

/-- The accumulator after the first `k` blocks of `b` positions, started at zero and fed one block's sum at a time:
    `acc 0 = 0`, `acc (k + 1) = acc k + Σ_{j < b} f (k * b + j)`. -/
def blockAcc {M : Type*} [AddCommMonoid M] (f : ℕ → M) (b : ℕ) : ℕ → M
  | 0 => 0
  | k + 1 => blockAcc f b k + ∑ j ∈ Finset.range b, f (k * b + j)

/-- After `k` blocks the accumulator is the sum over the first `k * b` positions. -/
theorem blockAcc_eq {M : Type*} [AddCommMonoid M] (f : ℕ → M) (b k : ℕ) :
    blockAcc f b k = ∑ n ∈ Finset.range (k * b), f n := by
  induction k with
  | zero => simp [blockAcc]
  | succ k ih => rw [blockAcc, ih, Nat.succ_mul, Finset.sum_range_add]

/-- After all `a` blocks the accumulator is the sum over all `N = a * b` positions, as a sum over `Fin N`. -/
theorem blockAcc_all {M : Type*} [AddCommMonoid M] (f : ℕ → M) (b a N : ℕ) (hN : a * b = N) (g : Fin N → M)
    (hf : ∀ h : Fin N, f h.val = g h) : blockAcc f b a = ∑ h : Fin N, g h := by
  subst hN
  rw [blockAcc_eq, Finset.sum_range]
  exact Finset.sum_congr rfl fun h _ => hf h

end BlockAcc
-- ==== Proof.SumBridge.lean ====
/-
  The sum kernel's accumulator against the reference's sum, over the extended reals.

  The kernel walks a `8192 × 8192` array in sixteen blocks of 512 rows. At each block it reduces the block along
  its lanes to 512 row sums, reduces those to one number, and adds it to a `1 × 1` accumulator that the first point
  has set to zero. The reference sums the whole array at once, from zero. Over the extended reals every operation
  here is exact, and addition is commutative and associative (the infinities included), so both are the sum of all
  entries: the block's payload at its one index is the accumulator plus the double sum over the block (`pay2_apply`),
  after point `n` the accumulator is the sum over blocks `0 … n` (`acc_apply`), each block's sum is the sum of its 512
  rows' sums (`block_eq`), sixteen consecutive runs of 512 rows are all 8192 rows (`sum_range_blocks`, `sum_rows`), and
  the reference's reduction over both axes is the same double sum (`host_apply`). No finiteness is assumed.
-/
import proofs.«144286_j9947144258008_1_alg».proof.Proof.Gen.KernelIdeal.Skeleton
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost
import proofs.«144286_j9947144258008_1_alg».proof.Proof.LibBlockAcc

noncomputable section

namespace Cert.KernelIdeal.SumBridge

open Cert.KernelIdeal Cert.KernelIdeal.Gen Idealize.ShloMosaic Idealize.ShloMosaic.ValueIdx
open scoped BigOperators
open BlockAcc (sum_range_blocks)

/-- `[a] → [a, 1]`: at `(i, u)` the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The lane reduction of a `512 × 8192` block at row `r`: the sum of that row. -/
theorem rowsum_apply (v3 : FVec Ideal S512x8192 .f32) (h : S512x8192.Reduces [1] S512)
    (hφ : FKind.Formats .f32) (hacc : (0x00000000#32 : BitVec 32) = FKind.add.neutral .f32 hφ) (r : Fin 512) :
    multiReduction .add [1] S512 v3 0x00000000#32 h hφ hacc (ix1 r) = ∑ c : Fin 8192, v3 (ix2 r c) := by
  refine (Ideal.multiReduction_add_single v3 _ h hφ hacc (ix1 r)).trans ?_
  refine Finset.sum_congr rfl fun c _ => congrArg v3 ?_
  funext a; match a with | ⟨0, _⟩ => rfl | ⟨1, _⟩ => rfl

/-- The sublane reduction of a `512 × 1` column: the sum of its entries. -/
theorem colsum_apply (v5 : FVec Ideal S512x1 .f32) (h : S512x1.Reduces [0] S1)
    (hφ : FKind.Formats .f32) (hacc : (0x00000000#32 : BitVec 32) = FKind.add.neutral .f32 hφ) (u : Fin 1) :
    multiReduction .add [0] S1 v5 0x00000000#32 h hφ hacc (ix1 u) = ∑ r : Fin 512, v5 (ix2 r u) := by
  refine (Ideal.multiReduction_add_single v5 _ h hφ hacc (ix1 u)).trans ?_
  refine Finset.sum_congr rfl fun r _ => congrArg v5 ?_
  funext a; match a with | ⟨0, _⟩ => rfl | ⟨1, _⟩ => rfl

/-- The tile payload at its one index: the accumulator read plus the sum of all the block's entries. -/
theorem pay2_apply (v3 : Vec Ideal S512x8192 .f32) (v8 : Vec Ideal S1x1 .f32) (p q : Fin 1) :
    k0_pay2 (F := Ideal) v3 v8 (ix2 p q) = v8 (ix2 p q) + ∑ r : Fin 512, ∑ c : Fin 8192, v3 (ix2 r c) := by
  unfold k0_pay2
  rw [shapeCast_self]
  refine (addf_apply _ _ _).trans ?_
  refine congrArg (v8 (ix2 p q) + ·) ?_
  refine (shapeCast_a_1a_apply _ _ p q).trans ?_
  refine (colsum_apply _ _ _ _ q).trans ?_
  refine Finset.sum_congr rfl fun r _ => ?_
  refine (shapeCast_a_a1_apply _ _ r q).trans ?_
  exact rowsum_apply _ _ _ _ r

/-- The zero payload at its one index. -/
theorem pay1_apply (j : S1x1.Idx) : k0_pay1 (F := Ideal) j = 0 := by
  unfold k0_pay1
  rw [shapeCast_self]
  exact Ideal.ofBits_zero_f32

/-- The accumulator after point `n`, from the blocks: point 0 adds block 0 to the stored zero, point `n + 1` adds block
`n + 1` to what point `n` left. -/
noncomputable def acc (b : ℕ → Vec Ideal S512x8192 .f32) : ℕ → FVec Ideal S1x1 .f32
  | 0 => k0_pay2 (F := Ideal) (b 0) (k0_pay1 (F := Ideal))
  | n + 1 => k0_pay2 (F := Ideal) (b (n + 1)) (acc b n)

/-- After point `n` the accumulator holds the sum of the entries of blocks `0 … n`. -/
theorem acc_apply (b : ℕ → Vec Ideal S512x8192 .f32) (n : ℕ) (p q : Fin 1) :
    acc b n (ix2 p q) = ∑ t ∈ Finset.range (n + 1), ∑ r : Fin 512, ∑ c : Fin 8192, b t (ix2 r c) := by
  induction n with
  | zero => rw [acc, pay2_apply, pay1_apply, zero_add, Finset.sum_range_one]
  | succ n ih =>
    rw [acc, pay2_apply, ih]
    exact (Finset.sum_range_succ _ (n + 1)).symm

/-- Row `n` of the array summed along its columns (zero past the last row). -/
def rowSum (x : FVec Ideal S8192x8192 .f32) (n : ℕ) : EReal :=
  if h : n < 8192 then ∑ c : Fin 8192, x (ix2 (⟨n, h⟩ : Fin 8192) c) else 0

/-- Block `t` holds rows `512 t … 512 t + 511`, so its entries sum to those rows' sums. -/
theorem block_eq (x : FVec Ideal S8192x8192 .f32) (b : ℕ → Vec Ideal S512x8192 .f32)
    (hb : ∀ (t : ℕ) (ht : t < 16) (r : Fin 512) (c : Fin 8192),
      b t (ix2 r c) = x (ix2 (⟨512 * t + r.val, by omega⟩ : Fin 8192) c)) (t : ℕ) (ht : t < 16) :
    ∑ r : Fin 512, ∑ c : Fin 8192, b t (ix2 r c) = ∑ j ∈ Finset.range 512, rowSum x (t * 512 + j) := by
  rw [Finset.sum_range]
  refine Finset.sum_congr rfl fun r _ => ?_
  have h : t * 512 + r.val < 8192 := by omega
  rw [rowSum, dif_pos h]
  refine Finset.sum_congr rfl fun c _ => ?_
  rw [hb t ht r c]
  exact congrArg (fun i : Fin 8192 => x (ix2 i c)) (Fin.ext (by show 512 * t + r.val = t * 512 + r.val; omega))

/-- The row sums over all `8192` rows are the sum of all the array's entries. -/
theorem sum_rows (x : FVec Ideal S8192x8192 .f32) :
    ∑ n ∈ Finset.range (16 * 512), rowSum x n = ∑ a : Fin 8192, ∑ c : Fin 8192, x (ix2 a c) := by
  rw [show 16 * 512 = 8192 from rfl, Finset.sum_range]
  refine Finset.sum_congr rfl fun a _ => ?_
  rw [rowSum, dif_pos a.isLt]

/-- The reference's reduction over both axes from zero, at its one index: the sum of all the array's entries. -/
theorem host_apply (x : FVec Ideal S8192x8192 .f32) (h1 : S8192x8192.ReducesTo [0, 1] S_) (h2 : 0 < S_.numel)
    (j : S_.Idx) :
    Host.reduceAdd (F := Ideal) x (constant S_ .f32 0x00000000#32) h1 h2 j
      = ∑ a : Fin 8192, ∑ c : Fin 8192, x (ix2 a c) := by
  refine (hostReduceAdd_apply x _ h1 h2 j).trans ?_
  refine (Ideal.hostReduceAdd_total h1 (fun b => b.elim0) x _ j).trans ?_
  rw [constant_apply, Ideal.ofBits_zero_f32, zero_add]
  exact sum_idx2 x

/-- The `1 × 1` accumulator viewed as a scalar reads its one entry. -/
theorem shapeCast_11_0_apply {α : Type} (v : S1x1.Idx → α) (hc : S1x1.ShapeCasts S_) (j : S_.Idx) :
    shapeCast S_ v hc j = v (ix2 (0 : Fin 1) (0 : Fin 1)) :=
  shapeCast_apply v hc _ _ (by
    have h1 := (S1x1.rowMajor (ix2 (0 : Fin 1) (0 : Fin 1))).isLt
    have h2 := (S_.rowMajor j).isLt
    have e1 : S1x1.numel = 1 := by decide
    have e2 : S_.numel = 1 := by decide
    omega)

/-- After the last point the accumulator, viewed as a scalar, is the reference's sum of the whole array. -/
theorem acc_last (x : FVec Ideal S8192x8192 .f32) (b : ℕ → Vec Ideal S512x8192 .f32)
    (hb : ∀ (t : ℕ) (ht : t < 16) (r : Fin 512) (c : Fin 8192),
      b t (ix2 r c) = x (ix2 (⟨512 * t + r.val, by omega⟩ : Fin 8192) c))
    (hc : S1x1.ShapeCasts S_) (h1 : S8192x8192.ReducesTo [0, 1] S_) (h2 : 0 < S_.numel) :
    shapeCast S_ (acc b 15) hc = Host.reduceAdd (F := Ideal) x (constant S_ .f32 0x00000000#32) h1 h2 := by
  funext j
  rw [shapeCast_11_0_apply, acc_apply, host_apply, ← sum_rows, sum_range_blocks]
  exact Finset.sum_congr rfl fun t ht => block_eq x b hb t (Finset.mem_range.mp ht)

/-- The same with the cast's shape fact taken from the program's stated facts. -/
theorem acc_last_facts [Cert.KernelIdeal.Facts] (x : FVec Ideal S8192x8192 .f32) (b : ℕ → Vec Ideal S512x8192 .f32)
    (hb : ∀ (t : ℕ) (ht : t < 16) (r : Fin 512) (c : Fin 8192),
      b t (ix2 r c) = x (ix2 (⟨512 * t + r.val, by omega⟩ : Fin 8192) c))
    (h1 : S8192x8192.ReducesTo [0, 1] S_) (h2 : 0 < S_.numel) :
    shapeCast S_ (acc b 15) Facts₀.shapeCasts_S1x1_S_
      = Host.reduceAdd (F := Ideal) x (constant S_ .f32 0x00000000#32) h1 h2 :=
  acc_last x b hb _ h1 h2

end Cert.KernelIdeal.SumBridge
-- ==== Proof.KValue0.lean ====
/-
  What the running-sum region computes, over the extended reals.

  At each of its sixteen points the body adds the sum of the point's block (rows `512 t … 512 t + 511` of the
  `8192 × 8192` input, all columns) to a `1 × 1` accumulator, which the first point has set to zero; at the last
  point it also copies the accumulator into the result buffer, and only that point writes the result back. So each
  case of the body leaves in the accumulator the tile payload of its block and of what the accumulator held
  (`sout_A`, `sout_B`, `sout_C`), the last point leaves the same value in the result buffer (`out_C`), the
  accumulator after point `n` is the running sum of blocks `0 … n` (`acc_eq`, by induction on the point), the result
  array ends holding the running sum of all sixteen blocks (`final`: its one block is the whole array), and, the
  blocks being consecutive runs of rows of the input (`iblk_apply`), that is the sum of every entry of the input,
  which is what the reference's reduction over both axes from zero computes (`region0_value`). Addition of
  extended reals is commutative and associative, so no entry needs to be finite.
-/
import proofs.«144286_j9947144258008_1_alg».proof.Proof.KFrame0
import proofs.«144286_j9947144258008_1_alg».proof.Proof.SumBridge
import Idealize.ShloMosaic.Lib.Pipeline.Value
import Idealize.ShloMosaic.Lib.Tactic

set_option maxRecDepth 16384

noncomputable section

namespace Cert.KernelIdeal.Val0

open Cert.KernelIdeal Cert.KernelIdeal.Gen Cert.KernelIdeal.Fr
open Idealize.ShloMosaic Idealize.ShloMosaic.TcCoe Idealize.SL.Sem Idealize.ShloMosaic.ValueIdx
open Idealize.ShloMosaic.Tactic
open Idealize.ShloMosaic.Pipeline (Dat)

variable {F : FTy → Type} [FloatOps F]

/-- The zero offsets of a whole-buffer access. -/
theorem hz : (![0, 0] : Fin 2 → Nat) = fun _ => 0 := funext fun a => by fin_cases a <;> rfl

/-! ## What each case of the body leaves -/

/-- A point that neither resets nor stores the result leaves, in the accumulator, the block's sum added to what was there. -/
theorem sout_B (c : Dev nD) (i : grid0.Coords) (a1 : Memref sig .tc .vmem S512x8192 .f32) (h1 : a1.IsWhole)
    (a2 : Memref sig .tc .vmem S1x1 .f32) (h2 : a2.IsWhole) (a3 : Memref sig .tc .vmem S1x1 .f32) (h3 : a3.IsWhole)
    (hc0 : ¬cond0_0 i) (hc1 : ¬cond0_1 i) (x0 : Vec F S512x8192 .f32) (xs0 : Vec F S1x1 .f32) :
    sout0_B c i a1 h1 a2 h2 a3 h3 hc0 hc1 x0 xs0 = k0_pay2 x0 xs0 := by
  unfold sout0_B
  rw [View.read_writes_eq_canon _ _ _ (scover0_B c i a1 h1 a2 h2 a3 h3 hc0 hc1 x0 xs0)]
  unfold kernelRun0_B
  dsimp only
  rw [View.canon_unit_zero hz]
  simp only [View.readAt_eq_ld, h1.read_unread, h3.read_unread, View.ld_unit_zero (S := S512x8192) hz,
    View.ld_unit_zero (S := S1x1) hz]

/-- The first point stores zero in the accumulator, reads it back, and leaves the block's sum added to it. -/
theorem sout_A (c : Dev nD) (i : grid0.Coords) (a1 : Memref sig .tc .vmem S512x8192 .f32) (h1 : a1.IsWhole)
    (a2 : Memref sig .tc .vmem S1x1 .f32) (h2 : a2.IsWhole) (a3 : Memref sig .tc .vmem S1x1 .f32) (h3 : a3.IsWhole)
    (hc0 : cond0_0 i) (hc1 : ¬cond0_1 i) (x0 : Vec F S512x8192 .f32) :
    sout0_A c i a1 h1 a2 h2 a3 h3 hc0 hc1 x0 = k0_pay2 x0 (k0_pay1 (F := F)) := by
  unfold sout0_A
  rw [View.read_writes_eq_canon _ _ _ (scover0_A c i a1 h1 a2 h2 a3 h3 hc0 hc1 x0)]
  unfold kernelRun0_A
  dsimp only
  sl_unfold_words
  rw [View.canon_cons_unit_zero (S := S1x1) hz, View.readCov_unit_zero (S := S1x1) _ hz]
  simp only [View.readAt_eq_ld, h1.read_unread, View.ld_unit_zero (S := S512x8192) hz]

/-- The last point leaves, in the accumulator, the block's sum added to what was there … -/
theorem sout_C (c : Dev nD) (i : grid0.Coords) (a1 : Memref sig .tc .vmem S512x8192 .f32) (h1 : a1.IsWhole)
    (a2 : Memref sig .tc .vmem S1x1 .f32) (h2 : a2.IsWhole) (a3 : Memref sig .tc .vmem S1x1 .f32) (h3 : a3.IsWhole)
    (hc0 : ¬cond0_0 i) (hc1 : cond0_1 i) (x0 : Vec F S512x8192 .f32) (xs0 : Vec F S1x1 .f32) :
    sout0_C c i a1 h1 a2 h2 a3 h3 hc0 hc1 x0 xs0 = k0_pay2 x0 xs0 := by
  unfold sout0_C
  rw [View.read_writes_eq_canon _ _ _ (scover0_C c i a1 h1 a2 h2 a3 h3 hc0 hc1 x0 xs0)]
  unfold kernelRun0_C
  dsimp only
  sl_unfold_words
  rw [View.canon_unit_zero (S := S1x1) hz]
  simp only [View.readAt_eq_ld, h1.read_unread, h3.read_unread, View.ld_unit_zero (S := S512x8192) hz,
    View.ld_unit_zero (S := S1x1) hz]

/-- … and stores that same value in the result buffer. -/
theorem out_C (c : Dev nD) (i : grid0.Coords) (a1 : Memref sig .tc .vmem S512x8192 .f32) (h1 : a1.IsWhole)
    (a2 : Memref sig .tc .vmem S1x1 .f32) (h2 : a2.IsWhole) (a3 : Memref sig .tc .vmem S1x1 .f32) (h3 : a3.IsWhole)
    (hc0 : ¬cond0_0 i) (hc1 : cond0_1 i) (x0 : Vec F S512x8192 .f32) (xs0 : Vec F S1x1 .f32) :
    out0_C_1 c i a1 h1 a2 h2 a3 h3 hc0 hc1 x0 xs0 = k0_pay2 x0 xs0 := by
  unfold out0_C_1
  rw [View.read_writes_eq_canon _ _ _ (cover0_C_1 c i a1 h1 a2 h2 a3 h3 hc0 hc1 x0 xs0)]
  unfold kernelRun0_C
  dsimp only
  sl_unfold_words
  rw [View.canon_unit_zero (S := S1x1) hz, View.readCov_unit_zero (S := S1x1) _ hz]
  simp only [View.readAt_eq_ld, h1.read_unread, h3.read_unread, View.ld_unit_zero (S := S512x8192) hz,
    View.ld_unit_zero (S := S1x1) hz]

/-! ## The input window's block, read off the array -/

section
variable (V : (c : Dev nD) → (b : Ref sig .tc) → Buf (Elt F) ((c : Thread nD τ).loc b))

/-- Block `t` of the input window is rows `512 t … 512 t + 511` of the array, all columns. -/
theorem iblk_apply (c : Dev nD) (t : Fin cfg0.N) (r : Fin 512) (cc : Fin 8192) (h : 512 * t.val + r.val < 8192) :
    (iblk0 V c 0 t : Vec F S512x8192 .f32) (ix2 r cc)
      = (V c main_arg0 : Vec F S8192x8192 .f32) (ix2 (⟨512 * t.val + r.val, h⟩ : Fin 8192) cc) := by
  have hi : win0_0.index t 0 = t.val ∧ win0_0.index t 1 = 0 :=
    (by decide +kernel : ∀ t : Fin grid0.N, win0_0.index t (0 : Fin 2) = t.val ∧ win0_0.index t 1 = 0) t
  unfold iblk0
  rw [View.read_apply]
  show V c main_arg0 _ = V c main_arg0 _
  congr 1
  funext a
  apply Fin.ext
  match a with
  | ⟨0, _⟩ => show win0_0.index t 0 * 512 + 1 * r.val = 512 * t.val + r.val; rw [hi.1]; omega
  | ⟨1, _⟩ => show win0_0.index t 1 * 8192 + 1 * cc.val = cc.val; rw [hi.2]; omega

end

/-! ## The accumulator after each point, and the result array -/

section
variable (V : (c : Dev nD) → (b : Ref sig .tc) → Buf (Elt Ideal) ((c : Thread nD τ).loc b))

/-- The input window's blocks in point order (past the last point a zero block that nothing reads). -/
def blocks (c : Dev nD) (t : ℕ) : Vec Ideal S512x8192 .f32 :=
  if h : t < cfg0.N then iblk0 V c 0 ⟨t, h⟩ else fun _ => (0 : EReal)

theorem blocks_lt (c : Dev nD) (t : ℕ) (h : t < cfg0.N) : blocks V c t = iblk0 V c 0 ⟨t, h⟩ := dif_pos h

/-- What the accumulator holds after point `n` is the running sum of the blocks up to `n`: by induction on the point. -/
theorem acc_eq (c : Dev nD) : ∀ (n : ℕ) (hn : n < cfg0.N),
    (outsAt0 V c n hn).2 = SumBridge.acc (blocks V c) n
  | 0, hn => by
    refine (congrArg Prod.snd (outsAt0_A V c ⟨0, hn⟩ rfl (show ¬(0 : ℕ) % 16 = 15 by decide))).trans ?_
    refine (sout_A (F := Ideal) c (grid0.coords ⟨0, hn⟩) (ms0_0 ⟨0, hn⟩) (hs0_0 ⟨0, hn⟩) (ms0_1 ⟨0, hn⟩) (hs0_1 ⟨0, hn⟩)
      scM0_0 (Memref.isWhole_whole _) ((hcond0_0 ⟨0, hn⟩).mpr rfl)
      (fun h => absurd ((hcond0_1 ⟨0, hn⟩).mp h) (show ¬(0 : ℕ) % 16 = 15 by decide)) (iblk0 V c 0 ⟨0, hn⟩)).trans ?_
    rw [SumBridge.acc, blocks_lt V c 0 hn]
  | n + 1, hn => by
    have hN : n + 1 < 16 := lt_of_lt_of_eq hn N0
    have h0 : ¬(⟨n + 1, hn⟩ : Fin cfg0.N).val % 16 = 0 := by dsimp only; omega
    have ih := acc_eq c n (Nat.lt_of_succ_lt hn)
    by_cases h1 : (⟨n + 1, hn⟩ : Fin cfg0.N).val % 16 = 15
    · refine (congrArg Prod.snd (outsAt0_C V c ⟨n + 1, hn⟩ h0 h1)).trans ?_
      refine (sout_C (F := Ideal) c (grid0.coords ⟨n + 1, hn⟩) (ms0_0 ⟨n + 1, hn⟩) (hs0_0 ⟨n + 1, hn⟩) (ms0_1 ⟨n + 1, hn⟩)
        (hs0_1 ⟨n + 1, hn⟩) scM0_0 (Memref.isWhole_whole _) (fun h => h0 ((hcond0_0 ⟨n + 1, hn⟩).mp h))
        ((hcond0_1 ⟨n + 1, hn⟩).mpr h1) (iblk0 V c 0 ⟨n + 1, hn⟩)
        (outsAt0 V c n (Nat.lt_of_succ_lt hn)).2).trans ?_
      rw [SumBridge.acc, blocks_lt V c (n + 1) hn, ih]
    · refine (congrArg Prod.snd (outsAt0_B V c ⟨n + 1, hn⟩ h0 h1)).trans ?_
      refine (sout_B (F := Ideal) c (grid0.coords ⟨n + 1, hn⟩) (ms0_0 ⟨n + 1, hn⟩) (hs0_0 ⟨n + 1, hn⟩) (ms0_1 ⟨n + 1, hn⟩)
        (hs0_1 ⟨n + 1, hn⟩) scM0_0 (Memref.isWhole_whole _) (fun h => h0 ((hcond0_0 ⟨n + 1, hn⟩).mp h))
        (fun h => h1 ((hcond0_1 ⟨n + 1, hn⟩).mp h)) (iblk0 V c 0 ⟨n + 1, hn⟩)
        (outsAt0 V c n (Nat.lt_of_succ_lt hn)).2).trans ?_
      rw [SumBridge.acc, blocks_lt V c (n + 1) hn, ih]

/-- At the last point the result buffer is given what the accumulator is given. -/
theorem fst_eq_snd (c : Dev nD) (t : Fin cfg0.N) (h0 : ¬t.val % 16 = 0) (h1 : t.val % 16 = 15) :
    (outsAt0 V c t.val t.isLt).1 = (outsAt0 V c t.val t.isLt).2 := by
  rw [outsAt0_C V c t h0 h1]
  exact (out_C (F := Ideal) c (grid0.coords t) (ms0_0 t) (hs0_0 t) (ms0_1 t) (hs0_1 t) scM0_0 (Memref.isWhole_whole _)
      (fun h => h0 ((hcond0_0 t).mp h)) ((hcond0_1 t).mpr h1) (iblk0 V c 0 t)
      (outsAt0 V c (t.val - 1) (Nat.lt_of_le_of_lt (Nat.sub_le _ _) t.isLt)).2).trans
    (sout_C (F := Ideal) c (grid0.coords t) (ms0_0 t) (hs0_0 t) (ms0_1 t) (hs0_1 t) scM0_0 (Memref.isWhole_whole _)
      (fun h => h0 ((hcond0_0 t).mp h)) ((hcond0_1 t).mpr h1) (iblk0 V c 0 t)
      (outsAt0 V c (t.val - 1) (Nat.lt_of_le_of_lt (Nat.sub_le _ _) t.isLt)).2).symm

/-- So there it holds the running sum of all sixteen blocks. -/
theorem out_last (c : Dev nD) (t : Fin cfg0.N) (h15 : t.val = 15) :
    (outsAt0 V c t.val t.isLt).1 = SumBridge.acc (blocks V c) 15 := by
  refine (fst_eq_snd V c t (by omega) (by omega)).trans ?_
  obtain ⟨n, hn⟩ := t
  obtain rfl : n = 15 := h15
  exact acc_eq V c 15 hn

/-- The sum the region leaves: the accumulator after the last point, as contents of the result array. -/
abbrev result (c : Dev nD) : Buf (Elt Ideal) ((c : Thread nD τ).loc main_v0) := SumBridge.acc (blocks V c) 15

/-- The one write-back, at point 15, writes it: the result window's block is its whole `1 × 1` array. -/
theorem flushed_eq (c : Dev nD) (t : Fin cfg0.N) (hf : (cfg0.win 1).flush t = true) :
    (dat0 V c).flushed 1 t = ((cfg0.win 1).blk t).view.read (Elt Ideal) (result V c) := by
  have hN : cfg0.N = 16 := N0
  have h15 : t.val = 15 := by have := (flush0_1 t).mp hf; have := t.isLt; omega
  have e := out_last V c t h15
  obtain rfl : t = t0_15 := Fin.ext h15
  show (cfg0.win 1).cut (grid0.coords t0_15) ((dat0 V c).after 1 t0_15) = _
  rw [after0_1, e]
  have hz' : (fun a => win0_1.index t0_15 a * main_v0.ty.shape.size a) = fun _ => 0 := funext fun a => by fin_cases a <;> decide
  exact (Memref.read_access_unit_zero (Elt Ideal) main_v0 hz' (fun a => by rw [congrFun hz' a]; simp) (result V c)).symm

/-- So the result array ends holding the accumulator's final value. -/
theorem final (c : Dev nD) : (dat0 V c).arrAt 1 cfg0.N = result V c :=
  (dat0 V c).arrAt_eq_of_cover 1 (result V c) (flushed_eq V c) fun i =>
    ⟨t0_15, (flush0_1 t0_15).mpr rfl, by
      show i ∈ ((View.whole main_v0).slice (win0_1.rect t0_15)).set
      rw [View.set_slice_whole, Rect.mem_set_unit]
      intro a
      have h0 : (i 0 : Nat) < 1 := (i 0).isLt
      have h1 : (i 1 : Nat) < 1 := (i 1).isLt
      match a with
      | ⟨0, _⟩ => show win0_1.index t0_15 0 * win0_1.size 0 ≤ (i 0 : Nat) ∧ (i 0 : Nat) < win0_1.index t0_15 0 * win0_1.size 0 + win0_1.xsize (grid0.coords t0_15) 0
                  rw [show win0_1.index t0_15 0 * win0_1.size 0 = 0 from by decide +kernel, show win0_1.xsize (grid0.coords t0_15) 0 = 1 from by decide +kernel]; omega
      | ⟨1, _⟩ => show win0_1.index t0_15 1 * win0_1.size 1 ≤ (i 1 : Nat) ∧ (i 1 : Nat) < win0_1.index t0_15 1 * win0_1.size 1 + win0_1.xsize (grid0.coords t0_15) 1
                  rw [show win0_1.index t0_15 1 * win0_1.size 1 = 0 from by decide +kernel, show win0_1.xsize (grid0.coords t0_15) 1 = 1 from by decide +kernel]; omega⟩

/-- The region's result, viewed as a scalar, is the reference's sum of the whole input array. -/
theorem region0_value (c : Dev nD) (hc : S1x1.ShapeCasts S_) (h1 : S8192x8192.ReducesTo [0, 1] S_) (h2 : 0 < S_.numel) :
    shapeCast S_ ((dat0 V c).arrAt 1 cfg0.N) hc
      = Host.reduceAdd (F := Ideal) (V c main_arg0) (constant S_ .f32 0x00000000#32) h1 h2 := by
  rw [final V c]
  refine SumBridge.acc_last (V c main_arg0) (blocks V c) (fun t ht r cc => ?_) hc h1 h2
  have htN : t < cfg0.N := lt_of_lt_of_eq ht N0.symm
  rw [blocks_lt V c t htN]
  exact iblk_apply V c ⟨t, htN⟩ r cc _

end

end Cert.KernelIdeal.Val0
-- ==== Proof.KPayBridge.lean ====
import proofs.«144286_j9947144258008_1_alg».proof.Proof.Gen.KernelIdeal.Skeleton
import Idealize.ShloMosaic.PureOps.Ideal
import Idealize.ShloMosaic.Lib.ValueIdx

/-!
The kernel side read at one element, at the ideal instance: the second kernel's stored block is the loaded
block plus the one element of the 1×1 operand, and a shape cast between the scalar shape and the 1×1 shape
carries the one element across.
-/

noncomputable section

namespace Cert.KernelIdeal.KPayBridge

open Cert.KernelIdeal Cert.KernelIdeal.Gen Idealize.ShloMosaic Idealize.ShloMosaic.ValueIdx

/-- Every index of the 1×1 shape is its one index. -/
theorem eq_ix2_00 (k : S1x1.Idx) : k = ix2 (0 : Fin 1) (0 : Fin 1) := by
  funext d
  match d with
  | ⟨0, _⟩ => exact Subsingleton.elim (α := Fin 1) _ _
  | ⟨1, _⟩ => exact Subsingleton.elim (α := Fin 1) _ _

/-- The stored block at an index: the loaded block's element plus the 1×1 operand's one element. -/
theorem k1_pay1_apply (v0 : Vec Ideal S256x8192 .f32) (v1 : Vec Ideal S1x1 .f32) (j : S256x8192.Idx) :
    k1_pay1 (F := Ideal) v0 v1 j = (v0 j : EReal) + (v1 (ix2 (0 : Fin 1) (0 : Fin 1)) : EReal) := by
  unfold k1_pay1
  rw [addf_apply, broadcast_apply]
  unfold extractAt
  exact congrArg (fun k => (v0 j : EReal) + (v1 k : EReal)) (eq_ix2_00 _)

/-- A scalar cast to the 1×1 shape reads the scalar's one element. -/
theorem shapeCast_S_S1x1_apply {α : Type} (s : S_.Idx → α) (h : S_.ShapeCasts S1x1) :
    shapeCast S1x1 s h (ix2 (0 : Fin 1) (0 : Fin 1)) = s ix0 := by
  unfold shapeCast
  exact congrArg s (eq_ix0 _)

/-- A 1×1 array cast to the scalar shape reads the array's one element. -/
theorem shapeCast_S1x1_S_apply {α : Type} (a : S1x1.Idx → α) (h : S1x1.ShapeCasts S_) :
    shapeCast S_ a h ix0 = a (ix2 (0 : Fin 1) (0 : Fin 1)) := by
  unfold shapeCast
  exact congrArg a (eq_ix2_00 _)

end Cert.KernelIdeal.KPayBridge

end
-- ==== Proof.KValue1.lean ====
import proofs.«144286_j9947144258008_1_alg».proof.Proof.KFrame1
import proofs.«144286_j9947144258008_1_alg».proof.Proof.KPayBridge
import Idealize.ShloMosaic.Lib.Pipeline.Value
import Idealize.ShloMosaic.Lib.ValueIdx
import Idealize.ShloMosaic.PureOps.Ideal

/-!
The value of the second region at the ideal instance: the result array after its 32 grid points is, index by index,
the first operand's array plus the one element of the 1×1 operand.

Point `t` stores, into rows `256·t … 256·t + 255` of the result, the same rows of the first operand plus the
scalar; every row `r` lies in point `r / 256`'s block, so the blocks cover the array.
-/

noncomputable section

namespace Cert.KernelIdeal.Val1

open Cert.KernelIdeal Cert.KernelIdeal.Gen Cert.KernelIdeal.Fr Idealize.ShloMosaic Idealize.ShloMosaic.TcCoe Idealize.SL.Sem
open Idealize.ShloMosaic.ValueIdx
open Idealize.ShloMosaic.Pipeline (Dat)
open Cert.KernelIdeal.KPayBridge

-- the buffer contents when the region is entered
variable (V : (c : Dev nD) → (b : Ref sig .tc) → Buf (Elt Ideal) ((c : Thread nD τ).loc b))

theorem hz : (![0, 0] : Fin 2 → Nat) = fun _ => 0 := funext fun a => by fin_cases a <;> rfl

/-- What the result array ends holding: the first operand's element plus the 1×1 operand's one element. -/
abbrev G (a0 : S8192x8192.Idx → EReal) (a1 : S1x1.Idx → EReal) : S8192x8192.Idx → EReal :=
  fun i => a0 i + a1 (ix2 (0 : Fin 1) (0 : Fin 1))

/-- The index maps, decided over the 32 grid points: the first operand's block and the result's block at point `t`
    are block row `t`, block column 0; the 1×1 operand's is its one block. -/
theorem idx_facts : ∀ t : Fin cfg1.N, win1_0.index t (0 : Fin 2) = t.val ∧ win1_0.index t (1 : Fin 2) = 0
    ∧ win1_2.index t (0 : Fin 2) = t.val ∧ win1_2.index t (1 : Fin 2) = 0 :=
  (by decide +kernel : ∀ t : Fin grid1.N, _)

/-- What point `t` writes back is block `t` of `G` of the arrays as the region finds them. -/
theorem flushed_eq (c : Dev nD) (t : Fin cfg1.N) :
    (dat1 (F := Ideal) V c).flushed 2 t = ((cfg1.win 2).blk t).view.read (Elt Ideal) (G (V c main_arg0) (V c main_v8)) := by
  show (cfg1.win 2).cut (grid1.coords t) ((dat1 (F := Ideal) V c).after 2 t) = _
  rw [after1_2]
  unfold out1_2
  rw [View.canon_unit_zero hz]
  simp only [View.ld_unit_zero (S := S256x8192) hz, View.ld_unit_zero (S := S1x1) hz]
  obtain ⟨e0, e1, e2, e3⟩ := idx_facts t
  funext j
  show k1_pay1 (F := Ideal) (iblk1 V c 0 t) (iblk1 V c 1 t) j = G (V c main_arg0) (V c main_v8) (((cfg1.win 2).blk t).view.emb j)
  rw [k1_pay1_apply]
  show (show EReal from V c main_arg0 (((cfg1.win 0).blk t).view.emb j)) + (show EReal from V c main_v8 (((cfg1.win 1).blk t).view.emb (ix2 (0 : Fin 1) (0 : Fin 1)))) = _
  have h0 : ((cfg1.win 0).blk t).view.emb j = ((cfg1.win 2).blk t).view.emb j := by
    funext a; apply Fin.ext
    match a with
    | ⟨0, _⟩ => show win1_0.index t (0 : Fin 2) * 256 + 1 * (j 0).val = win1_2.index t (0 : Fin 2) * 256 + 1 * (j 0).val; omega
    | ⟨1, _⟩ => show win1_0.index t (1 : Fin 2) * 8192 + 1 * (j 1).val = win1_2.index t (1 : Fin 2) * 8192 + 1 * (j 1).val; omega
  rw [h0, eq_ix2_00 (((cfg1.win 1).blk t).view.emb (ix2 (0 : Fin 1) (0 : Fin 1)))]

/-- An index of the array is in point `t`'s block iff each coordinate is in the block's range on its axis. -/
theorem mem_blk (t : Fin cfg1.N) (i : S8192x8192.Idx) :
    i ∈ ((cfg1.win 2).blk t).view.set ↔ ∀ a : Fin 2, win1_2.index t a * S256x8192.size a ≤ (i a).val ∧ (i a).val < win1_2.index t a * S256x8192.size a + S256x8192.size a := by
  show i ∈ ((View.whole main_v9).slice (win1_2.rect t)).set ↔ _
  rw [View.set_slice_whole, Rect.mem_set_unit]
  exact Iff.rfl

/-- Every block row is some point's. -/
theorem idx_onto : ∀ q : Fin 32, ∃ t : Fin cfg1.N, win1_2.index t = ![q.val, 0] :=
  (by decide +kernel : ∀ q : Fin 32, ∃ t : Fin grid1.N, win1_2.index t = ![q.val, 0])

/-- The blocks cover the array: row `r` is in the block of point `r / 256`. -/
theorem cover (i : S8192x8192.Idx) : ∃ t : Fin cfg1.N, (cfg1.win 2).flush t = true ∧ i ∈ ((cfg1.win 2).blk t).view.set := by
  have hi0 : (i 0).val < 8192 := (i 0).isLt
  have hi1 : (i 1).val < 8192 := (i 1).isLt
  obtain ⟨t, ht⟩ := idx_onto ⟨(i 0).val / 256, by omega⟩
  have q0 : win1_2.index t (0 : Fin 2) = (i 0).val / 256 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 256 ≤ (i 0).val ∧ (i 0).val < win1_2.index t (0 : Fin 2) * 256 + 256; omega
  | ⟨1, _⟩ => show win1_2.index t (1 : Fin 2) * 8192 ≤ (i 1).val ∧ (i 1).val < win1_2.index t (1 : Fin 2) * 8192 + 8192; omega

/-- The result array after the region: the first operand's array plus the 1×1 operand's one element, index by index. -/
theorem region1_value (c : Dev nD) :
    (dat1 (F := Ideal) V c).arrAt 2 cfg1.N
      = G (V c main_arg0) (V c main_v8) :=
  (dat1 (F := Ideal) V c).arrAt_eq_of_cover 2 (G (V c main_arg0) (V c main_v8)) (fun t _ => flushed_eq V c t) cover

/-- The same, at an index. -/
theorem region1_value_apply (c : Dev nD) (i : S8192x8192.Idx) :
    (dat1 (F := Ideal) V c).arrAt 2 cfg1.N i = G (V c main_arg0) (V c main_v8) i :=
  congrFun (region1_value V c) i

end Cert.KernelIdeal.Val1

end
-- ==== Proof.RefTotalBridge.lean ====
import proofs.«144286_j9947144258008_1_alg».proof.Proof.RefRun
import Idealize.ShloMosaic.PureOps.Ideal
import Idealize.ShloMosaic.Lib.ValueIdx

/-!
The reference's result read at one element, at the ideal instance: the argument's element plus the scalar
`total` of the sum of all entries. A broadcast of a scalar reads the scalar's one element at every index, and an
ideal sum of two arrays reads the sum of their elements.
-/

noncomputable section

namespace Cert.ReferenceIdeal.RefRun

open Cert.ReferenceIdeal Cert.ReferenceIdeal.Gen Idealize.ShloMosaic Idealize.ShloMosaic.ValueIdx

/-- A scalar broadcast over the array reads, at every index, the scalar's one element. -/
theorem bcast_apply {α : Type} (t : S_.Idx → α) (i : S8192x8192.Idx) :
    broadcastInDim S8192x8192 ![] bcast_S_S8192x8192 t i = t ix0 := by
  unfold broadcastInDim
  exact congrArg t (eq_ix0 _)

/-- The array plus a broadcast scalar, at an index: the element plus the scalar. -/
theorem addf_bcast_apply (x : (⟨S8192x8192, .f32⟩ : BufTy).Contents (Elt Ideal)) (t : (⟨S_, .f32⟩ : BufTy).Contents (Elt Ideal))
    (i : S8192x8192.Idx) :
    (addf (F := Ideal) x (broadcastInDim S8192x8192 ![] bcast_S_S8192x8192 t) : FVec Ideal S8192x8192 .f32) i
      = (x i : EReal) + (t ix0 : EReal) := by
  rw [addf_apply, bcast_apply]

/-- The reference's result at an index: the argument's element plus `total` of the sum of all entries. -/
theorem refOut_apply (x : (⟨S8192x8192, .f32⟩ : BufTy).Contents (Elt Ideal)) (i : S8192x8192.Idx) :
    refOut (F := Ideal) x i
      = (x i : EReal) + (total (F := Ideal) (Host.reduceAdd (F := Ideal) x (constant S_ .f32 0x00000000#32) reducesTo_S8192x8192_S_d0_1 h_S_) ix0 : EReal) :=
  addf_bcast_apply x _ i

end Cert.ReferenceIdeal.RefRun

end
-- ==== Proof.KFinal.lean ====
import proofs.«144286_j9947144258008_1_alg».proof.Defs
import proofs.«144286_j9947144258008_1_alg».proof.Proof.Gen.Pre_finite_inputs
import proofs.«144286_j9947144258008_1_alg».proof.Proof.KMid
import proofs.«144286_j9947144258008_1_alg».proof.Proof.KValue1
import proofs.«144286_j9947144258008_1_alg».proof.Proof.RefTotalBridge
import proofs.«144286_j9947144258008_1_alg».proof.Proof.KPayBridge

/-!
The two programs compute one function at the ideal instance.

The kernel program's result array is, index by index, the argument's element plus the one element of the 1×1 array the
second kernel reads; that element is `total` of the scalar the first kernel's result array is read as, and that scalar
is the sum of all entries of the argument (taken here as a hypothesis). The reference's result is, index by index, the
argument's element plus `total` of the same sum.
-/

noncomputable section

namespace Cert.KernelIdeal.Final

open Cert.KernelIdeal Cert.KernelIdeal.Gen Cert.KernelIdeal.Fr Cert.KernelIdeal.KPayBridge
open Idealize.ShloMosaic Idealize.ShloMosaic.TcCoe Idealize.SL.Sem Idealize.ShloMosaic.ValueIdx
open Cert.ReferenceIdeal.RefRun (refOut total refOut_apply)

/-- The first kernel's result array, read as a scalar, is the sum of all entries of the argument array from zero. -/
def SumHyp : Prop :=
  ∀ (V : (c : Dev nD) → (b : Ref sig .tc) → Buf (Elt Ideal) ((c : Thread nD τ).loc b)) (c : Dev nD) (hc : S1x1.ShapeCasts S_)
    (h1 : S8192x8192.ReducesTo [0, 1] S_) (h2 : 0 < S_.numel),
    shapeCast S_ ((dat0 (F := Ideal) V c).arrAt 1 cfg0.N) hc
      = Host.reduceAdd (F := Ideal) (V c main_arg0) (constant S_ .f32 0x00000000#32) h1 h2

/-- The kernel program's result array at the end is the reference's function of the argument array. -/
theorem result_eq_of (h0 : SumHyp) (m : (ℓ : Loc nD τ sig) → Buf (Elt Ideal) ℓ) (ρ : Dev nD → PrngReg) (c : Dev nD) :
    W7 (F := Ideal) m ρ c (Proc.devRef .tc main_v9) = refOut (F := Ideal) (m ((c : Thread nD τ).loc main_arg0)) := by
  have e1 : W7 (F := Ideal) m ρ c (Proc.devRef .tc main_v9) = Val1.G (V6 m ρ c main_arg0) (V6 m ρ c main_v8) :=
    (W7_arr m ρ c 2).trans (Val1.region1_value (V6 m ρ) c)
  refine e1.trans ?_
  rw [V6_arg0 m ρ c, V6_v8 m ρ c]
  funext i
  refine Eq.trans ?_ (refOut_apply _ i).symm
  refine congrArg (fun z : EReal => (show EReal from m ((c : Thread nD τ).loc main_arg0) i) + z) ?_
  refine (shapeCast_S_S1x1_apply _ _).trans ?_
  exact congrArg (fun s => total (F := Ideal) s ix0) (h0 (V0 m ρ) c _ _ _)

/-- At the ideal instance, from memories agreeing on the argument, both programs run, end with equal results and leave
    the argument unchanged: the kernel program's result is the reference's function of the argument (`result_eq_of`),
    which is what the reference's run ends at. -/
theorem algebraic_of (h0 : SumHyp) : Cert.algebraic_KernelIdeal_ReferenceIdeal := by
  intro m ρ m' ρ' _ hagree
  refine ⟨fun c => refOut (F := Ideal) (m ((c.tc : Thread nD τ).loc main_arg0)), ?_, ?_⟩
  · exact (θ_run defs _ _).mono
      (fun _ h c => ⟨(h c _ (mem_uc main_v9 (by decide))).trans (result_eq_of h0 m ρ c),
        (h c _ (mem_uc main_arg0 (by decide))).trans (W7_arg0 m ρ c)⟩)
      (Fr.run (F := Ideal) m ρ)
  · refine (θ_run Cert.ReferenceIdeal.defs _ _).mono (fun _ h c => ⟨(h c).1.trans ?_, (h c).2⟩)
      (Cert.ReferenceIdeal.RefRun.run (F := Ideal) m' ρ')
    rw [hagree c]

end Cert.KernelIdeal.Final

end
-- ==== Proof.lean ====
/-
  The certificate of this kernel against its reference.

  Both programs compute, from the argument array x (8192 x 8192): the sum s of all entries of x, its truncation n toward
  zero, the scalar total = n·(n−1)·½ where n > 1 and 0 elsewhere, and the result x + total.  The kernel program gets s
  from a first kernel that walks the rows in 16 blocks of 512, adding each block's sum (row sums, then their sum) to a
  1x1 scratch accumulator reset at the first block and stored as the 1x1 result at the last; a chain of host operations
  turns s into total; a second kernel adds total to every entry, 256 rows at a time.  The reference sums the whole array
  at once and applies the same chain.  Over the extended reals every operation is exact, and addition is commutative
  and associative (the infinities included), so the accumulated block sums are the whole sum and the two results agree
  entry by entry; no finiteness is used.  The three frames: each program runs to the end, faults nowhere and leaves
  its argument unchanged — for the kernel program (at the word level and at the exact level) by running its seven
  items in order, the first kernel's invariant carrying the accumulator from point to point.  The ideal pass rewrote
  nothing, so the idealization claim is trivial.
-/
import proofs.«144286_j9947144258008_1_alg».proof.Defs
import proofs.«144286_j9947144258008_1_alg».proof.Proof.Gen.Kernel
import proofs.«144286_j9947144258008_1_alg».proof.Proof.Gen.Kernel.Skeleton
import proofs.«144286_j9947144258008_1_alg».proof.Proof.Gen.Kernel.Launch
import proofs.«144286_j9947144258008_1_alg».proof.Proof.Gen.Kernel.Regions
import proofs.«144286_j9947144258008_1_alg».proof.Proof.Gen.Kernel.Points
import proofs.«144286_j9947144258008_1_alg».proof.Proof.Gen.KernelIdeal
import proofs.«144286_j9947144258008_1_alg».proof.Proof.Gen.KernelIdeal.Skeleton
import proofs.«144286_j9947144258008_1_alg».proof.Proof.Gen.KernelIdeal.Launch
import proofs.«144286_j9947144258008_1_alg».proof.Proof.Gen.KernelIdeal.Regions
import proofs.«144286_j9947144258008_1_alg».proof.Proof.Gen.KernelIdeal.Points
import proofs.«144286_j9947144258008_1_alg».proof.Proof.Gen.ReferenceIdeal
import proofs.«144286_j9947144258008_1_alg».proof.Proof.Gen.Pre_finite_inputs
import Idealize.ShloMosaic.Adequacy
import Idealize.ShloMosaic.Init
import proofs.«144286_j9947144258008_1_alg».proof.Proof.BMid
import proofs.«144286_j9947144258008_1_alg».proof.Proof.KMid
import proofs.«144286_j9947144258008_1_alg».proof.Proof.RefRun
import proofs.«144286_j9947144258008_1_alg».proof.Proof.KValue0
import proofs.«144286_j9947144258008_1_alg».proof.Proof.KFinal

noncomputable section

namespace Cert.Proof

open Idealize.ShloMosaic Idealize.SL.Sem

/-- The kernel program at the word level runs to the end and leaves its argument unchanged. -/
theorem frame_p : Cert.frame_Kernel := fun m ρ _ => Cert.Kernel.Fr.frame m ρ
/-- So does its idealization, at the exact level. -/
theorem frame_pi : Cert.frame_KernelIdeal := fun m ρ _ => Cert.KernelIdeal.Fr.frame m ρ
/-- So does the reference. -/
theorem frame_ri : Cert.frame_ReferenceIdeal := fun m ρ _ => Cert.ReferenceIdeal.RefRun.frame_ri m ρ

theorem claim : Cert.Claim := ⟨Cert.Kernel.Gen.facts, Cert.KernelIdeal.Gen.facts, Cert.ReferenceIdeal.Gen.facts, Cert.Pre_finite_inputs.Gen.facts,
  frame_p, frame_pi, frame_ri, trivial, Cert.KernelIdeal.Final.algebraic_of (fun V c hc h1 h2 => Cert.KernelIdeal.Val0.region0_value V c hc h1 h2)⟩

end Cert.Proof

end
